-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x16000000 : Shape := ⟨2, ![2, 16000000]⟩
abbrev S16000000 : Shape := ⟨1, ![16000000]⟩
abbrev S1x4 : Shape := ⟨2, ![1, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S4x1 .f32) (main_arg6 : FVec F S1 .f32) (main_arg7 : FVec F S1x1 .f32) (main_arg8 : FVec F S1 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x1 .f32 := Host.absf main_arg5
  let main_cst_6 : FVec F S_ .f32 := constant S_ .f32 0x7F800000#32
  let main_v20 : FVec F S4x1 .f32 := broadcastInDim S4x1 ![] bcast_S_S4x1 main_cst_6
  let main_v21 : IVec S4x1 1 := cmpf .olt main_v19 main_v20
  let main_c_7 : IVec S_ 1 := constantI S_ 1 1#1
  let main_v22 : IVec S_ 1 := (fun x v => Host.reduce IntOp.andi x v reducesTo_S4x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x1 .f32 := Host.absf main_arg7
  let main_cst_10 : FVec F S_ .f32 := constant S_ .f32 0x7F800000#32
  let main_v30 : FVec F S1x1 .f32 := broadcastInDim S1x1 ![] bcast_S_S1x1 main_cst_10
  let main_v31 : IVec S1x1 1 := cmpf .olt main_v29 main_v30
  let main_c_11 : IVec S_ 1 := constantI S_ 1 1#1
  let main_v32 : IVec S_ 1 := (fun x v => Host.reduce IntOp.andi x v reducesTo_S1x1_S_d0_1 h_S_) main_v31 main_c_11
  let main_v33 : IVec S_ 1 := andi main_v28 main_v32
  fn_part2 (F := F) main_arg8 main_v33

def fn {F : FTy → Type} [FloatOps F] (main_arg0 : FVec F S1000000x1 .f32) (main_arg1 : IVec S2x16000000 32) (main_arg2 : FVec F S16000000 .f32) (main_arg3 : FVec F S1x4 .f32) (main_arg4 : FVec F S4 .f32) (main_arg5 : FVec F S4x1 .f32) (main_arg6 : FVec F S1 .f32) (main_arg7 : FVec F S1x1 .f32) (main_arg8 : FVec F S1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S1x4 .f32 := Host.absf main_arg3
  let main_cst_2 : FVec F S_ .f32 := constant S_ .f32 0x7F800000#32
  let main_v10 : FVec F S1x4 .f32 := broadcastInDim S1x4 ![] bcast_S_S1x4 main_cst_2
  let main_v11 : IVec S1x4 1 := cmpf .olt main_v9 main_v10
  let main_c_3 : IVec S_ 1 := constantI S_ 1 1#1
  let main_v12 : IVec S_ 1 := (fun x v => Host.reduce IntOp.andi x v reducesTo_S1x4_S_d0_1 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg5 main_arg6 main_arg7 main_arg8 main_v13 main_v16
-- ==== Kernel.lean ====
abbrev S1000000x1 : Shape := ⟨2, ![1000000, 1]⟩
abbrev S2x16000000 : Shape := ⟨2, ![2, 16000000]⟩
abbrev S16000000 : Shape := ⟨1, ![16000000]⟩
abbrev S1x4 : Shape := ⟨2, ![1, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S1x16000000 : Shape := ⟨2, ![1, 16000000]⟩
abbrev S1000000 : Shape := ⟨1, ![1000000]⟩
abbrev S17000000 : Shape := ⟨1, ![17000000]⟩
abbrev S_ : Shape := ⟨0, ![]⟩
abbrev S17000000x1 : Shape := ⟨2, ![17000000, 1]⟩
abbrev S1000000x4 : Shape := ⟨2, ![1000000, 4]⟩
abbrev S8000x1 : Shape := ⟨2, ![8000, 1]⟩
abbrev S8000x4 : Shape := ⟨2, ![8000, 4]⟩
abbrev S17000000x4 : Shape := ⟨2, ![17000000, 4]⟩
abbrev S8000 : Shape := ⟨1, ![8000]⟩

abbrev nBuf : Space → Nat
  | .hbm => 88
  | .vmem => 18
  | .smem => 0
  | _ => 0

abbrev bufTy : (tb : Table) → Fin (tcTables nBuf tb) → BufTy
  | .hbm, ⟨0, _⟩ => ⟨S1000000x1, .f32⟩
  | .hbm, ⟨1, _⟩ => ⟨S2x16000000, .i32⟩
  | .hbm, ⟨2, _⟩ => ⟨S16000000, .f32⟩
  | .hbm, ⟨3, _⟩ => ⟨S1x4, .f32⟩
  | .hbm, ⟨4, _⟩ => ⟨S4, .f32⟩
  | .hbm, ⟨5, _⟩ => ⟨S4x1, .f32⟩
  | .hbm, ⟨6, _⟩ => ⟨S1, .f32⟩
  | .hbm, ⟨7, _⟩ => ⟨S1x1, .f32⟩
  | .hbm, ⟨8, _⟩ => ⟨S1, .f32⟩
  | .hbm, ⟨9, _⟩ => ⟨S1x16000000, .i32⟩
  | .hbm, ⟨10, _⟩ => ⟨S16000000, .i32⟩
  | .hbm, ⟨11, _⟩ => ⟨S1x16000000, .i32⟩
  | .hbm, ⟨12, _⟩ => ⟨S16000000, .i32⟩
  | .hbm, ⟨13, _⟩ => ⟨S1000000, .i32⟩
  | .hbm, ⟨14, _⟩ => ⟨S17000000, .i32⟩
  | .hbm, ⟨15, _⟩ => ⟨S17000000, .i32⟩
  | .hbm, ⟨16, _⟩ => ⟨S_, .f32⟩
  | .hbm, ⟨17, _⟩ => ⟨S1000000, .f32⟩
  | .hbm, ⟨18, _⟩ => ⟨S17000000, .f32⟩
  | .hbm, ⟨19, _⟩ => ⟨S_, .f32⟩
  | .hbm, ⟨20, _⟩ => ⟨S1000000, .f32⟩
  | .hbm, ⟨21, _⟩ => ⟨S17000000x1, .i32⟩
  | .hbm, ⟨22, _⟩ => ⟨S1000000, .f32⟩
  | .hbm, ⟨23, _⟩ => ⟨S_, .f32⟩
  | .hbm, ⟨24, _⟩ => ⟨S1000000, .f32⟩
  | .hbm, ⟨25, _⟩ => ⟨S1000000, .i1⟩
  | .hbm, ⟨26, _⟩ => ⟨S1000000, .f32⟩
  | .hbm, ⟨27, _⟩ => ⟨S_, .f32⟩
  | .hbm, ⟨28, _⟩ => ⟨S1000000, .f32⟩
  | .hbm, ⟨29, _⟩ => ⟨S1000000, .f32⟩
  | .hbm, ⟨30, _⟩ => ⟨S_, .i32⟩
  | .hbm, ⟨31, _⟩ => ⟨S17000000, .i32⟩
  | .hbm, ⟨32, _⟩ => ⟨S17000000, .i1⟩
  | .hbm, ⟨33, _⟩ => ⟨S_, .i32⟩
  | .hbm, ⟨34, _⟩ => ⟨S17000000, .i32⟩
  | .hbm, ⟨35, _⟩ => ⟨S17000000, .i32⟩
  | .hbm, ⟨36, _⟩ => ⟨S17000000, .i32⟩
  | .hbm, ⟨37, _⟩ => ⟨S17000000x1, .i32⟩
  | .hbm, ⟨38, _⟩ => ⟨S17000000, .f32⟩
  | .hbm, ⟨39, _⟩ => ⟨S17000000, .f32⟩
  | .hbm, ⟨40, _⟩ => ⟨S_, .i32⟩
  | .hbm, ⟨41, _⟩ => ⟨S17000000, .i32⟩
  | .hbm, ⟨42, _⟩ => ⟨S17000000, .i1⟩
  | .hbm, ⟨43, _⟩ => ⟨S_, .i32⟩
  | .hbm, ⟨44, _⟩ => ⟨S17000000, .i32⟩
  | .hbm, ⟨45, _⟩ => ⟨S17000000, .i32⟩
  | .hbm, ⟨46, _⟩ => ⟨S17000000, .i32⟩
  | .hbm, ⟨47, _⟩ => ⟨S17000000x1, .i32⟩
  | .hbm, ⟨48, _⟩ => ⟨S17000000, .f32⟩
  | .hbm, ⟨49, _⟩ => ⟨S17000000, .f32⟩
  | .hbm, ⟨50, _⟩ => ⟨S1000000x4, .f32⟩
  | .hbm, ⟨51, _⟩ => ⟨S17000000x1, .f32⟩
  | .hbm, ⟨52, _⟩ => ⟨S_, .i32⟩
  | .hbm, ⟨53, _⟩ => ⟨S17000000, .i32⟩
  | .hbm, ⟨54, _⟩ => ⟨S17000000, .i1⟩
  | .hbm, ⟨55, _⟩ => ⟨S_, .i32⟩
  | .hbm, ⟨56, _⟩ => ⟨S17000000, .i32⟩
  | .hbm, ⟨57, _⟩ => ⟨S17000000, .i32⟩
  | .hbm, ⟨58, _⟩ => ⟨S17000000, .i32⟩
  | .hbm, ⟨59, _⟩ => ⟨S17000000x1, .i32⟩
  | .hbm, ⟨60, _⟩ => ⟨S17000000x4, .f32⟩
  | .hbm, ⟨61, _⟩ => ⟨S17000000x4, .f32⟩
  | .hbm, ⟨62, _⟩ => ⟨S17000000x4, .f32⟩
  | .hbm, ⟨63, _⟩ => ⟨S_, .f32⟩
  | .hbm, ⟨64, _⟩ => ⟨S1000000x4, .f32⟩
  | .hbm, ⟨65, _⟩ => ⟨S17000000x1, .i32⟩
  | .hbm, ⟨66, _⟩ => ⟨S1000000x4, .f32⟩
  | .hbm, ⟨67, _⟩ => ⟨S1x4, .f32⟩
  | .hbm, ⟨68, _⟩ => ⟨S1x4, .f32⟩
  | .hbm, ⟨69, _⟩ => ⟨S1000000x1, .f32⟩
  | .hbm, ⟨70, _⟩ => ⟨S17000000x1, .f32⟩
  | .hbm, ⟨71, _⟩ => ⟨S_, .i32⟩
  | .hbm, ⟨72, _⟩ => ⟨S17000000, .i32⟩
  | .hbm, ⟨73, _⟩ => ⟨S17000000, .i1⟩
  | .hbm, ⟨74, _⟩ => ⟨S_, .i32⟩
  | .hbm, ⟨75, _⟩ => ⟨S17000000, .i32⟩
  | .hbm, ⟨76, _⟩ => ⟨S17000000, .i32⟩
  | .hbm, ⟨77, _⟩ => ⟨S17000000, .i32⟩
  | .hbm, ⟨78, _⟩ => ⟨S17000000x1, .i32⟩
  | .hbm, ⟨79, _⟩ => ⟨S17000000x1, .f32⟩
  | .hbm, ⟨80, _⟩ => ⟨S17000000x1, .f32⟩
  | .hbm, ⟨81, _⟩ => ⟨S_, .f32⟩
  | .hbm, ⟨82, _⟩ => ⟨S1000000x1, .f32⟩
  | .hbm, ⟨83, _⟩ => ⟨S17000000x1, .i32⟩
  | .hbm, ⟨84, _⟩ => ⟨S1000000x1, .f32⟩
  | .hbm, ⟨85, _⟩ => ⟨S1x1, .f32⟩
  | .hbm, ⟨86, _⟩ => ⟨S1x1, .f32⟩
  | .hbm, ⟨87, _⟩ => ⟨S1000000x1, .f32⟩
  | .local _ .vmem, ⟨0, _⟩ => ⟨S8000x1, .f32⟩
  | .local _ .vmem, ⟨1, _⟩ => ⟨S8000x1, .f32⟩
  | .local _ .vmem, ⟨2, _⟩ => ⟨S1x4, .f32⟩
  | .local _ .vmem, ⟨3, _⟩ => ⟨S8000x4, .f32⟩
  | .local _ .vmem, ⟨4, _⟩ => ⟨S8000x4, .f32⟩
  | .local _ .vmem, ⟨5, _⟩ => ⟨S8000x4, .f32⟩
  | .local _ .vmem, ⟨6, _⟩ => ⟨S8000x4, .f32⟩
  | .local _ .vmem, ⟨7, _⟩ => ⟨S1x4, .f32⟩
  | .local _ .vmem, ⟨8, _⟩ => ⟨S1x4, .f32⟩
  | .local _ .vmem, ⟨9, _⟩ => ⟨S8000x1, .f32⟩
  | .local _ .vmem, ⟨10, _⟩ => ⟨S8000x1, .f32⟩
  | .local _ .vmem, ⟨11, _⟩ => ⟨S8000x1, .f32⟩
  | .local _ .vmem, ⟨12, _⟩ => ⟨S8000x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S8000x1, .f32⟩
  | .local _ .vmem, ⟨17, _⟩ => ⟨S8000x1, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S1000000_S17000000_d0 : Shape.Concatenates [S16000000, S1000000] S17000000 0
  bcast_S_S1000000 : S_.BroadcastsInDim S1000000 (![] : Fin 0 → Fin S1000000.rank)
  bcast_S17000000_S17000000x1_0 : S17000000.BroadcastsInDim S17000000x1 (![0] : Fin 1 → Fin S17000000x1.rank)
  bcast_S_S17000000 : S_.BroadcastsInDim S17000000 (![] : Fin 0 → Fin S17000000.rank)
  inb_S8000x1_S8000x1_0_0 : ∀ a, (![0, 0] : Fin 2 → Nat) a + S8000x1.size a ≤ S8000x1.size a
  h_S8000x1 : 0 < S8000x1.numel
  inb_S1x4_S1x4_0_0 : ∀ a, (![0, 0] : Fin 2 → Nat) a + S1x4.size a ≤ S1x4.size a
  h_S1x4 : 0 < S1x4.numel
  broadcasts_S8000x1_S8000x4 : S8000x1.Broadcasts S8000x4
  broadcasts_S1x4_S8000x4 : S1x4.Broadcasts S8000x4
  inb_S8000x4_S8000x4_0_0 : ∀ a, (![0, 0] : Fin 2 → Nat) a + S8000x4.size a ≤ S8000x4.size a
  h_S8000x4 : 0 < S8000x4.numel
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  shapeCasts_S4_S1x4 : S4.ShapeCasts S1x4
  shapeCasts_S4x1_S1x4 : S4x1.ShapeCasts S1x4
  shapeCasts_S8000x4_S8000x4 : S8000x4.ShapeCasts S8000x4
  shapeCasts_S1x4_S1x4 : S1x4.ShapeCasts S1x4
  reduces_S8000x4_S8000 : S8000x4.Reduces [1] S8000
  shapeCasts_S8000_S8000x1 : S8000.ShapeCasts S8000x1
  bcast_S_S1000000x1 : S_.BroadcastsInDim S1000000x1 (![] : Fin 0 → Fin S1000000x1.rank)
  shapeCasts_S1_S1x1 : S1.ShapeCasts S1x1
  shapeCasts_S8000x1_S8000x1 : S8000x1.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  gather_S1000000x1_S17000000x1_S17000000x1_1_0_n_n_0_1_11_wf : GatherDims.WF S1000000x1 S17000000x1 S17000000x1 [1] [0] [] [0] [] 1 ![1, 1]
  scatter_S1000000x1_S17000000x1_S17000000x1_1_0_0_1_wf : ScatterDims.WF S1000000x1 S17000000x1 S17000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S1000000x1.size a
  hwx0_0 : ∀ i : grid0.Coords, EltTy.bits .f32 = 32 ∨ (Rect.block (s := S1000000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4.size a ≤ S1x4.size a
  hwx0_1 : ∀ i : grid0.Coords, EltTy.bits .f32 = 32 ∨ (Rect.block (s := S1x4) S1x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x4.size a ≤ S1000000x4.size a
  hwx0_2 : ∀ i : grid0.Coords, EltTy.bits .f32 = 32 ∨ (Rect.block (s := S1000000x4) S8000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x4.size a ≤ S1000000x4.size a
  hwx1_0 : ∀ i : grid1.Coords, EltTy.bits .f32 = 32 ∨ (Rect.block (s := S1000000x4) S8000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4.size a ≤ S1x4.size a
  hwx1_2 : ∀ i : grid1.Coords, EltTy.bits .f32 = 32 ∨ (Rect.block (s := S1x4) S1x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x1.size a ≤ S1000000x1.size a
  hwx1_3 : ∀ i : grid1.Coords, EltTy.bits .f32 = 32 ∨ (Rect.block (s := S1000000x1) S8000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S1000000x1.size a
  hwx2_0 : ∀ i : grid2.Coords, EltTy.bits .f32 = 32 ∨ (Rect.block (s := S1000000x1) S8000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x1.size a ≤ S1000000x1.size a
  hwx2_4 : ∀ i : grid2.Coords, EltTy.bits .f32 = 32 ∨ (Rect.block (s := S1000000x1) S8000x1.size (cc2_transform_4 i) (hinb2_4 i)).WholeWords (EltTy.packing .f32)

variable [Facts₀]

def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def gather_S1000000x1_S17000000x1_S17000000x1_1_0_n_n_0_1_11 : GatherDims S1000000x1 S17000000x1 S17000000x1 where
  offsetDims := [1]
  collapsedSliceDims := [0]
  operandBatchingDims := []
  startIndicesBatchingDims := []
  startIndexMap := [0]
  indexVectorDim := 1
  sliceSizes := ![1, 1]
  wf := gather_S1000000x1_S17000000x1_S17000000x1_1_0_n_n_0_1_11_wf
def scatter_S1000000x1_S17000000x1_S17000000x1_1_0_0_1 : ScatterDims S1000000x1 S17000000x1 S17000000x1 where
  updateWindowDims := [1]
  insertedWindowDims := [0]
  scatterDimsToOperandDims := [0]
  indexVectorDim := 1
  wf := scatter_S1000000x1_S17000000x1_S17000000x1_1_0_0_1_wf

abbrev win0_0 : Pipeline.Window sig grid0 :=
  Pipeline.Window.ofSpec (Memref.whole main_arg0) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S8000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S8000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S8000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S8000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1000000x1 : Shape := ⟨2, ![1000000, 1]⟩
abbrev S2x16000000 : Shape := ⟨2, ![2, 16000000]⟩
abbrev S16000000 : Shape := ⟨1, ![16000000]⟩
abbrev S1x4 : Shape := ⟨2, ![1, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S1x16000000 : Shape := ⟨2, ![1, 16000000]⟩
abbrev S1000000 : Shape := ⟨1, ![1000000]⟩
abbrev S17000000 : Shape := ⟨1, ![17000000]⟩
abbrev S_ : Shape := ⟨0, ![]⟩
abbrev S17000000x1 : Shape := ⟨2, ![17000000, 1]⟩
abbrev S1000000x4 : Shape := ⟨2, ![1000000, 4]⟩
abbrev S17000000x4 : Shape := ⟨2, ![17000000, 4]⟩

abbrev nBuf : Space → Nat
  | .hbm => 104
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S2x16000000, .i32⟩
  | .hbm, ⟨2, _⟩ => ⟨S16000000, .f32⟩
  | .hbm, ⟨3, _⟩ => ⟨S1x4, .f32⟩
  | .hbm, ⟨4, _⟩ => ⟨S4, .f32⟩
  | .hbm, ⟨5, _⟩ => ⟨S4x1, .f32⟩
  | .hbm, ⟨6, _⟩ => ⟨S1, .f32⟩
  | .hbm, ⟨7, _⟩ => ⟨S1x1, .f32⟩
  | .hbm, ⟨8, _⟩ => ⟨S1, .f32⟩
  | .hbm, ⟨9, _⟩ => ⟨S1x16000000, .i32⟩
  | .hbm, ⟨10, _⟩ => ⟨S16000000, .i32⟩
  | .hbm, ⟨11, _⟩ => ⟨S1x16000000, .i32⟩
  | .hbm, ⟨12, _⟩ => ⟨S16000000, .i32⟩
  | .hbm, ⟨13, _⟩ => ⟨S1000000, .i32⟩
  | .hbm, ⟨14, _⟩ => ⟨S17000000, .i32⟩
  | .hbm, ⟨15, _⟩ => ⟨S17000000, .i32⟩
  | .hbm, ⟨16, _⟩ => ⟨S_, .f32⟩
  | .hbm, ⟨17, _⟩ => ⟨S1000000, .f32⟩
  | .hbm, ⟨18, _⟩ => ⟨S17000000, .f32⟩
  | .hbm, ⟨19, _⟩ => ⟨S_, .f32⟩
  | .hbm, ⟨20, _⟩ => ⟨S1000000, .f32⟩
  | .hbm, ⟨21, _⟩ => ⟨S17000000x1, .i32⟩
  | .hbm, ⟨22, _⟩ => ⟨S1000000, .f32⟩
  | .hbm, ⟨23, _⟩ => ⟨S_, .f32⟩
  | .hbm, ⟨24, _⟩ => ⟨S1000000, .f32⟩
  | .hbm, ⟨25, _⟩ => ⟨S1000000, .i1⟩
  | .hbm, ⟨26, _⟩ => ⟨S1000000, .f32⟩
  | .hbm, ⟨27, _⟩ => ⟨S_, .f32⟩
  | .hbm, ⟨28, _⟩ => ⟨S1000000, .f32⟩
  | .hbm, ⟨29, _⟩ => ⟨S1000000, .f32⟩
  | .hbm, ⟨30, _⟩ => ⟨S_, .i32⟩
  | .hbm, ⟨31, _⟩ => ⟨S17000000, .i32⟩
  | .hbm, ⟨32, _⟩ => ⟨S17000000, .i1⟩
  | .hbm, ⟨33, _⟩ => ⟨S_, .i32⟩
  | .hbm, ⟨34, _⟩ => ⟨S17000000, .i32⟩
  | .hbm, ⟨35, _⟩ => ⟨S17000000, .i32⟩
  | .hbm, ⟨36, _⟩ => ⟨S17000000, .i32⟩
  | .hbm, ⟨37, _⟩ => ⟨S17000000x1, .i32⟩
  | .hbm, ⟨38, _⟩ => ⟨S17000000, .f32⟩
  | .hbm, ⟨39, _⟩ => ⟨S17000000, .f32⟩
  | .hbm, ⟨40, _⟩ => ⟨S_, .i32⟩
  | .hbm, ⟨41, _⟩ => ⟨S17000000, .i32⟩
  | .hbm, ⟨42, _⟩ => ⟨S17000000, .i1⟩
  | .hbm, ⟨43, _⟩ => ⟨S_, .i32⟩
  | .hbm, ⟨44, _⟩ => ⟨S17000000, .i32⟩
  | .hbm, ⟨45, _⟩ => ⟨S17000000, .i32⟩
  | .hbm, ⟨46, _⟩ => ⟨S17000000, .i32⟩
  | .hbm, ⟨47, _⟩ => ⟨S17000000x1, .i32⟩
  | .hbm, ⟨48, _⟩ => ⟨S17000000, .f32⟩
  | .hbm, ⟨49, _⟩ => ⟨S17000000, .f32⟩
  | .hbm, ⟨50, _⟩ => ⟨S1000000x4, .f32⟩
  | .hbm, ⟨51, _⟩ => ⟨S17000000x1, .f32⟩
  | .hbm, ⟨52, _⟩ => ⟨S_, .i32⟩
  | .hbm, ⟨53, _⟩ => ⟨S17000000, .i32⟩
  | .hbm, ⟨54, _⟩ => ⟨S17000000, .i1⟩
  | .hbm, ⟨55, _⟩ => ⟨S_, .i32⟩
  | .hbm, ⟨56, _⟩ => ⟨S17000000, .i32⟩
  | .hbm, ⟨57, _⟩ => ⟨S17000000, .i32⟩
  | .hbm, ⟨58, _⟩ => ⟨S17000000, .i32⟩
  | .hbm, ⟨59, _⟩ => ⟨S17000000x1, .i32⟩
  | .hbm, ⟨60, _⟩ => ⟨S17000000x4, .f32⟩
  | .hbm, ⟨61, _⟩ => ⟨S17000000x4, .f32⟩
  | .hbm, ⟨62, _⟩ => ⟨S17000000x4, .f32⟩
  | .hbm, ⟨63, _⟩ => ⟨S_, .f32⟩
  | .hbm, ⟨64, _⟩ => ⟨S1000000x4, .f32⟩
  | .hbm, ⟨65, _⟩ => ⟨S17000000x1, .i32⟩
  | .hbm, ⟨66, _⟩ => ⟨S1000000x4, .f32⟩
  | .hbm, ⟨67, _⟩ => ⟨S1x4, .f32⟩
  | .hbm, ⟨68, _⟩ => ⟨S1000000x4, .f32⟩
  | .hbm, ⟨69, _⟩ => ⟨S1000000x4, .f32⟩
  | .hbm, ⟨70, _⟩ => ⟨S_, .f32⟩
  | .hbm, ⟨71, _⟩ => ⟨S1000000x4, .f32⟩
  | .hbm, ⟨72, _⟩ => ⟨S1000000x4, .f32⟩
  | .hbm, ⟨73, _⟩ => ⟨S1000000x1, .f32⟩
  | .hbm, ⟨74, _⟩ => ⟨S17000000x1, .f32⟩
  | .hbm, ⟨75, _⟩ => ⟨S_, .i32⟩
  | .hbm, ⟨76, _⟩ => ⟨S17000000, .i32⟩
  | .hbm, ⟨77, _⟩ => ⟨S17000000, .i1⟩
  | .hbm, ⟨78, _⟩ => ⟨S_, .i32⟩
  | .hbm, ⟨79, _⟩ => ⟨S17000000, .i32⟩
  | .hbm, ⟨80, _⟩ => ⟨S17000000, .i32⟩
  | .hbm, ⟨81, _⟩ => ⟨S17000000, .i32⟩
  | .hbm, ⟨82, _⟩ => ⟨S17000000x1, .i32⟩
  | .hbm, ⟨83, _⟩ => ⟨S17000000x1, .f32⟩
  | .hbm, ⟨84, _⟩ => ⟨S17000000x1, .f32⟩
  | .hbm, ⟨85, _⟩ => ⟨S_, .f32⟩
  | .hbm, ⟨86, _⟩ => ⟨S1000000x1, .f32⟩
  | .hbm, ⟨87, _⟩ => ⟨S17000000x1, .i32⟩
  | .hbm, ⟨88, _⟩ => ⟨S1000000x1, .f32⟩
  | .hbm, ⟨89, _⟩ => ⟨S1x1, .f32⟩
  | .hbm, ⟨90, _⟩ => ⟨S1000000x1, .f32⟩
  | .hbm, ⟨91, _⟩ => ⟨S1000000x1, .f32⟩
  | .hbm, ⟨92, _⟩ => ⟨S1000000x1, .f32⟩
  | .hbm, ⟨93, _⟩ => ⟨S1x1, .f32⟩
  | .hbm, ⟨94, _⟩ => ⟨S1000000x1, .f32⟩
  | .hbm, ⟨95, _⟩ => ⟨S1000000x1, .f32⟩
  | .hbm, ⟨96, _⟩ => ⟨S1000000x1, .f32⟩
  | .hbm, ⟨97, _⟩ => ⟨S1000000x1, .f32⟩
  | .hbm, ⟨98, _⟩ => ⟨S_, .f32⟩
  | .hbm, ⟨99, _⟩ => ⟨S1000000x1, .f32⟩
  | .hbm, ⟨100, _⟩ => ⟨S1000000x1, .f32⟩
  | .hbm, ⟨101, _⟩ => ⟨S_, .f32⟩
  | .hbm, ⟨102, _⟩ => ⟨S1000000x1, .f32⟩
  | .hbm, ⟨103, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S1000000_S17000000_d0 : Shape.Concatenates [S16000000, S1000000] S17000000 0
  bcast_S_S1000000 : S_.BroadcastsInDim S1000000 (![] : Fin 0 → Fin S1000000.rank)
  bcast_S17000000_S17000000x1_0 : S17000000.BroadcastsInDim S17000000x1 (![0] : Fin 1 → Fin S17000000x1.rank)
  bcast_S_S17000000 : S_.BroadcastsInDim S17000000 (![] : Fin 0 → Fin S17000000.rank)
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  dot_S1000000x1_S1x4_S1000000x4_1_0_0_1_n_n_wf : DotDims.WF S1000000x1 S1x4 S1000000x4 [1] [0] [0] [1] [] []
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S1000000x4_S4x1_S1000000x1_1_0_0_1_n_n_wf : DotDims.WF S1000000x4 S4x1 S1000000x1 [1] [0] [0] [1] [] []
  gather_S1000000x1_S17000000x1_S17000000x1_1_0_n_n_0_1_11_wf : GatherDims.WF S1000000x1 S17000000x1 S17000000x1 [1] [0] [] [0] [] 1 ![1, 1]
  scatter_S1000000x1_S17000000x1_S17000000x1_1_0_0_1_wf : ScatterDims.WF S1000000x1 S17000000x1 S17000000x1 [1] [0] [0] 1
  dot_S1000000x1_S1x1_S1000000x1_1_0_0_1_n_n_wf : DotDims.WF S1000000x1 S1x1 S1000000x1 [1] [0] [0] [1] [] []

variable [Facts₀]

def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def dot_S1000000x1_S1x4_S1000000x4_1_0_0_1_n_n : DotDims S1000000x1 S1x4 S1000000x4 where
  lhsContracting := [1]
  rhsContracting := [0]
  lhsNonContracting := [0]
  rhsNonContracting := [1]
  lhsBatch := []
  rhsBatch := []
  wf := dot_S1000000x1_S1x4_S1000000x4_1_0_0_1_n_n_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S1000000x4_S4x1_S1000000x1_1_0_0_1_n_n : DotDims S1000000x4 S4x1 S1000000x1 where
  lhsContracting := [1]
  rhsContracting := [0]
  lhsNonContracting := [0]
  rhsNonContracting := [1]
  lhsBatch := []
  rhsBatch := []
  wf := dot_S1000000x4_S4x1_S1000000x1_1_0_0_1_n_n_wf
def gather_S1000000x1_S17000000x1_S17000000x1_1_0_n_n_0_1_11 : GatherDims S1000000x1 S17000000x1 S17000000x1 where
  offsetDims := [1]
  collapsedSliceDims := [0]
  operandBatchingDims := []
  startIndicesBatchingDims := []
  startIndexMap := [0]
  indexVectorDim := 1
  sliceSizes := ![1, 1]
  wf := gather_S1000000x1_S17000000x1_S17000000x1_1_0_n_n_0_1_11_wf
def scatter_S1000000x1_S17000000x1_S17000000x1_1_0_0_1 : ScatterDims S1000000x1 S17000000x1 S17000000x1 where
  updateWindowDims := [1]
  insertedWindowDims := [0]
  scatterDimsToOperandDims := [0]
  indexVectorDim := 1
  wf := scatter_S1000000x1_S17000000x1_S17000000x1_1_0_0_1_wf
def dot_S1000000x1_S1x1_S1000000x1_1_0_0_1_n_n : DotDims S1000000x1 S1x1 S1000000x1 where
  lhsContracting := [1]
  rhsContracting := [0]
  lhsNonContracting := [0]
  rhsNonContracting := [1]
  lhsBatch := []
  rhsBatch := []
  wf := dot_S1000000x1_S1x1_S1000000x1_1_0_0_1_n_n_wf

class Facts : Prop extends Facts₀ where

variable [Facts]
-- ==== Proof.KernelRun.lean ====
/-
  The idealized kernel's run with its result named. The program is three pipelined regions among five stretches of host
  operations; the library's launch theorem for such a program runs the segments in order and ends with every unscoped
  buffer at the contents the segment fold assigns it. Kept here, besides the nine argument arrays ending as launched, is
  the result buffer: it ends at the fold's value for it, which the bridge module reads back, segment by segment, to a
  function of the arguments.
-/
import proofs.«176831_j60687887893291_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the segment fold's
    contents for it, and the nine argument arrays end as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Named

end
-- ==== Proof.Spec.lean ====
/-
  The three dense stages of a two-layer graph convolution over 1 000 000 nodes, each as ONE whole-array function on the
  extended reals, index by index. Between them sit the two neighbourhood aggregations (a gather along the edges, a
  scaling by the symmetric degree normalisation, a scatter-add into the target nodes), which both programs spell with
  the same host operations and which are therefore never opened.

  * `lin1`  — first layer, before aggregation: node `n` has one feature, the weight is a 1 × 4 row, so entry (n, j)
               is the product x[n, 0] · w[0, j] (a contraction over an axis of length one is that single product).
  * `lin2`  — after the first aggregation: add the bias row, clamp below at zero, and contract the four hidden
               features with the second layer's weights: Σ_k max(a[n, k] + b[0, k], 0) · w[0, k].
  * `head`  — after the second aggregation: add the bias, apply the 1 × 1 output map and its bias, and the logistic
               function 1 / (1 + e^(−v)) read on the extended reals.
-/
import Idealize.ShloMosaic.PureOps.Ideal
import Idealize.ShloMosaic.Lib.ValueIdx

noncomputable section

open scoped BigOperators

namespace Cert.Gcn

open Idealize.ShloMosaic Idealize.ShloMosaic.ValueIdx

/-- First layer's linear map: entry (n, j) is the node's single feature times the weight row's entry j. -/
def lin1 (x : FVec Ideal ⟨2, ![1000000, 1]⟩ .f32) (w : FVec Ideal ⟨2, ![1, 4]⟩ .f32) :
    FVec Ideal ⟨2, ![1000000, 4]⟩ .f32 :=
  fun i => x (ix2 (i 0) (0 : Fin 1)) * w (ix2 (0 : Fin 1) (i 1))

/-- Bias, clamp at zero, and the second layer's linear map: the sum over the four hidden features. The zero is kept
    as the float word both programs print, so it is never evaluated. -/
def lin2 (a : FVec Ideal ⟨2, ![1000000, 4]⟩ .f32) (b w : FVec Ideal ⟨2, ![1, 4]⟩ .f32) :
    FVec Ideal ⟨2, ![1000000, 1]⟩ .f32 :=
  fun i => ∑ k : Fin 4, max (a (ix2 (i 0) k) + b (ix2 (0 : Fin 1) k)) (Ideal.ofBits .f32 0x00000000#32) * w (ix2 (0 : Fin 1) k)

/-- Bias, the 1 × 1 output map with its bias, and the logistic function. -/
def head (a : FVec Ideal ⟨2, ![1000000, 1]⟩ .f32) (b wl bl : FVec Ideal ⟨2, ![1, 1]⟩ .f32) :
    FVec Ideal ⟨2, ![1000000, 1]⟩ .f32 :=
  fun i => Ideal.logistic ((a (ix2 (i 0) (0 : Fin 1)) + b (ix2 (0 : Fin 1) (0 : Fin 1))) * wl (ix2 (0 : Fin 1) (0 : Fin 1))
    + bl (ix2 (0 : Fin 1) (0 : Fin 1)))

end Cert.Gcn

end
-- ==== Proof.Lin1Region.lean ====
/-
  The first pipelined region (the first layer's linear map). At grid point t the body loads rows
  8000 t … 8000 t + 7999 of the node features (an 8000 × 1 block) and the whole 1 × 4 weight row, broadcasts the two
  against each other and multiplies; the 8000 × 4 product is written back as block t of the output. The 125 blocks
  tile the 1 000 000 × 4 array, so when the region is left the output array is `lin1` of the two input arrays as the
  region found them — whatever those contents are (the statement is at an arbitrary entry valuation).
-/
import proofs.«176831_j60687887893291_2_alg».proof.Proof.Gen.KernelIdeal.Frame
import proofs.«176831_j60687887893291_2_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Lin1Region

open Cert.KernelIdeal Cert.KernelIdeal.Gen Cert.Gcn

variable (V : (c : Dev nD) → (b : Ref sig .tc) → Buf (Elt Ideal) ((c : Thread nD τ).loc b))

theorem origin : (![0, 0] : Fin 2 → Nat) = fun _ => 0 := funext fun a => by fin_cases a <;> rfl

/-- Row p, column q of the body's product: the block's feature in row p times the weight row's entry q. -/
theorem product_apply (x0 : Vec Ideal S8000x1 .f32) (x1 : Vec Ideal S1x4 .f32) (p : Fin 8000) (q : Fin 4) :
    k0_pay1 (F := Ideal) x0 x1 (ix2 p q) = x0 (ix2 p (0 : Fin 1)) * x1 (ix2 (0 : Fin 1) q) := by
  unfold k0_pay1
  show broadcastTo S8000x4 x0 broadcasts_S8000x1_S8000x4 (ix2 p q) * broadcastTo S8000x4 x1 broadcasts_S1x4_S8000x4 (ix2 p q) = _
  have e0 : broadcastTo S8000x4 x0 broadcasts_S8000x1_S8000x4 (ix2 p q) = x0 (ix2 p (0 : Fin 1)) :=
    broadcastTo_apply x0 broadcasts_S8000x1_S8000x4 (ix2 p q) (ix2 p (0 : Fin 1)) (fun a => by
      match a with
      | ⟨0, _⟩ => rw [if_neg (by decide +revert)]; rfl
      | ⟨1, _⟩ => rw [if_pos (by decide +revert)]; rfl)
  have e1 : broadcastTo S8000x4 x1 broadcasts_S1x4_S8000x4 (ix2 p q) = x1 (ix2 (0 : Fin 1) q) :=
    broadcastTo_apply x1 broadcasts_S1x4_S8000x4 (ix2 p q) (ix2 (0 : Fin 1) q) (fun a => by
      match a with
      | ⟨0, _⟩ => rw [if_pos (by decide +revert)]; rfl
      | ⟨1, _⟩ => rw [if_neg (by decide +revert)]; rfl)
  rw [e0, e1]

/-- The three index maps over the grid: the feature block and the output block move down one block per point, the
    weight row stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `lin1` of the arrays the region found. -/
theorem flushed_eq (c : Dev nD) (t : Fin cfg0.N) :
    (dat0 V c).flushed 2 t = ((cfg0.win 2).blk t).view.read (Elt Ideal) (lin1 (V c main_arg0) (V c main_arg3)) := by
  show (cfg0.win 2).cut (grid0.coords t) ((dat0 V c).after 2 t) = _
  rw [after0_2]
  unfold out0_2
  rw [View.canon_unit_zero origin]
  simp only [View.ld_unit_zero (S := S8000x1) origin, View.ld_unit_zero (S := S1x4) origin]
  obtain ⟨e00, e01, e10, e11, e20, e21⟩ := index_facts t
  funext j
  obtain ⟨p, q, rfl⟩ : ∃ (p : Fin 8000) (q : Fin 4), j = ix2 p q := ⟨j 0, j 1, eq_ix2 j⟩
  refine (product_apply (iblk0 V c 0 t) (iblk0 V c 1 t) p q).trans ?_
  show _ = lin1 (V c main_arg0) (V c main_arg3) (((cfg0.win 2).blk t).view.emb (ix2 p q))
  unfold lin1
  have h0 : ((cfg0.win 0).blk t).view.emb (ix2 p (0 : Fin 1)) = ix2 ((((cfg0.win 2).blk t).view.emb (ix2 p q)) 0) (0 : Fin 1) := by
    funext a; apply Fin.ext
    match a with
    | ⟨0, _⟩ => show win0_0.index t (0 : Fin 2) * 8000 + 1 * p.val = win0_2.index t (0 : Fin 2) * 8000 + 1 * p.val; omega
    | ⟨1, _⟩ => show win0_0.index t (1 : Fin 2) * 1 + 1 * 0 = 0; omega
  have h1 : ((cfg0.win 1).blk t).view.emb (ix2 (0 : Fin 1) q) = ix2 (0 : Fin 1) ((((cfg0.win 2).blk t).view.emb (ix2 p q)) 1) := by
    funext a; apply Fin.ext
    match a with
    | ⟨0, _⟩ => show win0_1.index t (0 : Fin 2) * 1 + 1 * 0 = 0; omega
    | ⟨1, _⟩ => show win0_1.index t (1 : Fin 2) * 4 + 1 * q.val = win0_2.index t (1 : Fin 2) * 4 + 1 * q.val; omega
  exact congrArg₂ (· * ·) (congrArg (V c main_arg0 : FVec Ideal S1000000x1 .f32) h0) (congrArg (V c main_arg3 : FVec Ideal S1x4 .f32) h1)

/-- An index of the output array lies in point t's block iff each coordinate lies in the block's range on its axis. -/
theorem mem_block (t : Fin cfg0.N) (i : S1000000x4.Idx) :
    i ∈ ((cfg0.win 2).blk t).view.set ↔ ∀ a : Fin 2, win0_2.index t a * S8000x4.size a ≤ (i a).val ∧ (i a).val < win0_2.index t a * S8000x4.size a + S8000x4.size a := by
  show i ∈ ((View.whole main_v33).slice (win0_2.rect t)).set ↔ _
  rw [View.set_slice_whole, Rect.mem_set_unit]
  exact Iff.rfl

/-- Row r of the array lies in the block of point r / 8000: the blocks tile the array. -/
theorem covered (i : S1000000x4.Idx) : ∃ t : Fin cfg0.N, (cfg0.win 2).flush t = true ∧ i ∈ ((cfg0.win 2).blk t).view.set := by
  have hi0 : (i 0).val < 1000000 := (i 0).isLt
  have hi1 : (i 1).val < 4 := (i 1).isLt
  have hN : cfg0.N = 125 := N_0
  let t : Fin cfg0.N := ⟨(i 0).val / 8000, by rw [hN]; omega⟩
  obtain ⟨e00, e01, e10, e11, e20, e21⟩ := index_facts t
  refine ⟨t, flush0_2 t, ?_⟩
  rw [mem_block]
  intro a
  match a with
  | ⟨0, _⟩ =>
    show win0_2.index t (0 : Fin 2) * 8000 ≤ (i 0).val ∧ (i 0).val < win0_2.index t (0 : Fin 2) * 8000 + 8000
    rw [e20]; show (i 0).val / 8000 * 8000 ≤ (i 0).val ∧ (i 0).val < (i 0).val / 8000 * 8000 + 8000; omega
  | ⟨1, _⟩ =>
    show win0_2.index t (1 : Fin 2) * 4 ≤ (i 1).val ∧ (i 1).val < win0_2.index t (1 : Fin 2) * 4 + 4
    rw [e21]; omega

/-- When the region is left its output array holds `lin1` of the node features and the weight row it found. -/
theorem final (c : Dev nD) : (dat0 V c).arrAt 2 cfg0.N = lin1 (V c main_arg0) (V c main_arg3) :=
  (dat0 V c).arrAt_eq_of_cover 2 (lin1 (V c main_arg0) (V c main_arg3)) (fun t _ => flushed_eq V c t) covered

end Cert.KernelIdeal.Lin1Region

end
-- ==== Proof.Lin2Region.lean ====
/-
  The second pipelined region (hidden bias, clamp at zero, the second layer's linear map). At grid point t the body
  loads rows 8000 t … 8000 t + 7999 of the aggregated 1 000 000 × 4 array, the 1 × 4 bias row and the 1 × 4 weight row;
  it adds the bias row to every row, clamps below at zero, multiplies by the weight row and sums each row's four
  products; the 8000 sums, as an 8000 × 1 column, are written back as block t. The 125 blocks tile the 1 000 000 × 1
  output, so when the region is left the output array is `lin2` of the three input arrays as the region found them.
-/
import proofs.«176831_j60687887893291_2_alg».proof.Proof.Gen.KernelIdeal.Frame
import proofs.«176831_j60687887893291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Lin2Region

open Cert.KernelIdeal Cert.KernelIdeal.Gen Cert.Gcn

variable (V : (c : Dev nD) → (b : Ref sig .tc) → Buf (Elt Ideal) ((c : Thread nD τ).loc b))

theorem origin : (![0, 0] : Fin 2 → Nat) = fun _ => 0 := funext fun a => by fin_cases a <;> rfl

/-- A vector of 8000 sums viewed as an 8000 × 1 column reads, in row p, the p-th sum. -/
theorem column_apply (v : FVec Ideal S8000 .f32) (p : Fin 8000) (q : Fin 1) :
    shapeCast S8000x1 v shapeCasts_S8000_S8000x1 (ix2 p q) = v (ix1 p) :=
  shapeCast_apply v shapeCasts_S8000_S8000x1 (ix2 p q) (ix1 p) (by
    have hq : q.val = 0 := by omega
    rw [Shape.rowMajor_val_two, Shape.rowMajor_val_one]
    show p.val = p.val * 1 + q.val
    omega)

/-- The index of the 8000 × 4 block over row p whose coordinate on the summed axis is k. -/
theorem lift_eq (p : Fin 8000) (k : Fin 4) : reduces_S8000x4_S8000.lift (ix1 p) k = ix2 p k := by
  funext a; apply Fin.ext
  match a with
  | ⟨0, _⟩ => rfl
  | ⟨1, _⟩ => rfl

/-- The sum along a row of an 8000 × 4 block, read at row p, is the sum of the row's four entries. -/
theorem row_sum (src : FVec Ideal S8000x4 .f32) (p : Fin 8000) :
    multiReduction (F := Ideal) .add [1] S8000 src 0x00000000#32 reduces_S8000x4_S8000 (.inl rfl) rfl (ix1 p) = ∑ k : Fin 4, src (ix2 p k) := by
  refine (Ideal.multiReduction_add_single src 0x00000000#32 reduces_S8000x4_S8000 (.inl rfl) rfl (ix1 p)).trans ?_
  exact Finset.sum_congr rfl fun k _ => congrArg src (lift_eq p k)

/-- Row p of the body's result: the sum over the four hidden features of max(a + b, 0) · w. -/
theorem hidden_apply (x0 : Vec Ideal S8000x4 .f32) (x1 x2 : Vec Ideal S1x4 .f32) (p : Fin 8000) (q : Fin 1) :
    k1_pay1 (F := Ideal) x0 x1 x2 (ix2 p q)
      = ∑ k : Fin 4, max (x0 (ix2 p k) + x1 (ix2 (0 : Fin 1) k)) (Ideal.ofBits .f32 0x00000000#32) * x2 (ix2 (0 : Fin 1) k) := by
  unfold k1_pay1
  refine (column_apply _ p q).trans ?_
  refine (row_sum _ p).trans ?_
  refine Finset.sum_congr rfl fun k _ => ?_
  simp only [shapeCast_self]
  show max (x0 (ix2 p k) + broadcastTo S8000x4 x1 broadcasts_S1x4_S8000x4 (ix2 p k)) (Ideal.ofBits .f32 0x00000000#32)
    * broadcastTo S8000x4 x2 broadcasts_S1x4_S8000x4 (ix2 p k) = _
  rw [broadcastTo_1b_ab_apply x1 broadcasts_S1x4_S8000x4 p k, broadcastTo_1b_ab_apply x2 broadcasts_S1x4_S8000x4 p k]

/-- The four index maps over the grid: the aggregated block and the output block move down one block per point, the
    bias row and the weight row stay. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of `lin2` of the arrays the region found. -/
theorem flushed_eq (c : Dev nD) (t : Fin cfg1.N) :
    (dat1 V c).flushed 3 t = ((cfg1.win 3).blk t).view.read (Elt Ideal) (lin2 (V c main_v46) (V c main_v47) (V c main_v48)) := by
  show (cfg1.win 3).cut (grid1.coords t) ((dat1 V c).after 3 t) = _
  rw [after1_3]
  unfold out1_3
  rw [View.canon_unit_zero origin]
  simp only [View.ld_unit_zero (S := S8000x4) origin, View.ld_unit_zero (S := S1x4) origin]
  obtain ⟨e00, e01, e10, e11, e20, e21, e30, e31⟩ := index_facts t
  funext j
  obtain ⟨p, q, rfl⟩ : ∃ (p : Fin 8000) (q : Fin 1), j = ix2 p q := ⟨j 0, j 1, eq_ix2 j⟩
  refine (hidden_apply (iblk1 V c 0 t) (iblk1 V c 1 t) (iblk1 V c 2 t) p q).trans ?_
  show _ = lin2 (V c main_v46) (V c main_v47) (V c main_v48) (((cfg1.win 3).blk t).view.emb (ix2 p q))
  unfold lin2
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 8000 + 1 * p.val = win1_3.index t (0 : Fin 2) * 8000 + 1 * p.val; omega
    | ⟨1, _⟩ => show win1_0.index t (1 : Fin 2) * 4 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 4 + 1 * k.val = k.val; omega
  have h2 : ((cfg1.win 2).blk t).view.emb (ix2 (0 : Fin 1) k) = ix2 (0 : Fin 1) k := by
    funext a; apply Fin.ext
    match a with
    | ⟨0, _⟩ => show win1_2.index t (0 : Fin 2) * 1 + 1 * 0 = 0; omega
    | ⟨1, _⟩ => show win1_2.index t (1 : Fin 2) * 4 + 1 * k.val = k.val; omega
  exact congrArg₂ (· * ·) (congrArg (fun y => max y (Ideal.ofBits .f32 0x00000000#32)) (congrArg₂ (· + ·)
    (congrArg (V c main_v46 : FVec Ideal S1000000x4 .f32) h0) (congrArg (V c main_v47 : FVec Ideal S1x4 .f32) h1)))
    (congrArg (V c main_v48 : FVec Ideal S1x4 .f32) h2)

/-- An index of the output array lies in point t's block iff each coordinate lies in the block's range on its axis. -/
theorem mem_block (t : Fin cfg1.N) (i : S1000000x1.Idx) :
    i ∈ ((cfg1.win 3).blk t).view.set ↔ ∀ a : Fin 2, win1_3.index t a * S8000x1.size a ≤ (i a).val ∧ (i a).val < win1_3.index t a * S8000x1.size a + S8000x1.size a := by
  show i ∈ ((View.whole main_v49).slice (win1_3.rect t)).set ↔ _
  rw [View.set_slice_whole, Rect.mem_set_unit]
  exact Iff.rfl

/-- Row r of the array lies in the block of point r / 8000: the blocks tile the array. -/
theorem covered (i : S1000000x1.Idx) : ∃ t : Fin cfg1.N, (cfg1.win 3).flush t = true ∧ i ∈ ((cfg1.win 3).blk t).view.set := by
  have hi0 : (i 0).val < 1000000 := (i 0).isLt
  have hi1 : (i 1).val < 1 := (i 1).isLt
  have hN : cfg1.N = 125 := N_1
  let t : Fin cfg1.N := ⟨(i 0).val / 8000, by rw [hN]; omega⟩
  obtain ⟨e00, e01, e10, e11, e20, e21, e30, e31⟩ := index_facts t
  refine ⟨t, flush1_3 t, ?_⟩
  rw [mem_block]
  intro a
  match a with
  | ⟨0, _⟩ =>
    show win1_3.index t (0 : Fin 2) * 8000 ≤ (i 0).val ∧ (i 0).val < win1_3.index t (0 : Fin 2) * 8000 + 8000
    rw [e30]; show (i 0).val / 8000 * 8000 ≤ (i 0).val ∧ (i 0).val < (i 0).val / 8000 * 8000 + 8000; omega
  | ⟨1, _⟩ =>
    show win1_3.index t (1 : Fin 2) * 1 ≤ (i 1).val ∧ (i 1).val < win1_3.index t (1 : Fin 2) * 1 + 1
    rw [e31]; omega

/-- When the region is left its output array holds `lin2` of the aggregated array, the bias row and the weight row. -/
theorem final (c : Dev nD) : (dat1 V c).arrAt 3 cfg1.N = lin2 (V c main_v46) (V c main_v47) (V c main_v48) :=
  (dat1 V c).arrAt_eq_of_cover 3 (lin2 (V c main_v46) (V c main_v47) (V c main_v48)) (fun t _ => flushed_eq V c t) covered

end Cert.KernelIdeal.Lin2Region

end
-- ==== Proof.HeadRegion.lean ====
/-
  The third pipelined region (output bias, the 1 × 1 output map with its bias, the logistic function). At grid point t
  the body loads rows 8000 t … 8000 t + 7999 of the aggregated 1 000 000 × 1 array and the three 1 × 1 parameters,
  and stores, row by row, logistic((a + b) · w + c); the 8000 × 1 result is written back as block t. The 125 blocks tile
  the array, so when the region is left the output array is `head` of the four input arrays as the region found them.
-/
import proofs.«176831_j60687887893291_2_alg».proof.Proof.Gen.KernelIdeal.Frame
import proofs.«176831_j60687887893291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.HeadRegion

open Cert.KernelIdeal Cert.KernelIdeal.Gen Cert.Gcn

variable (V : (c : Dev nD) → (b : Ref sig .tc) → Buf (Elt Ideal) ((c : Thread nD τ).loc b))

theorem origin : (![0, 0] : Fin 2 → Nat) = fun _ => 0 := funext fun a => by fin_cases a <;> rfl

/-- A 1 × 1 parameter broadcast down the block's rows reads its one entry everywhere. -/
theorem param_apply (x : Vec Ideal S1x1 .f32) (p : Fin 8000) (q : Fin 1) :
    broadcastTo S8000x1 x broadcasts_S1x1_S8000x1 (ix2 p q) = x (ix2 (0 : Fin 1) (0 : Fin 1)) :=
  broadcastTo_apply x broadcasts_S1x1_S8000x1 (ix2 p q) (ix2 (0 : Fin 1) (0 : Fin 1)) (fun a => by
    match a with
    | ⟨0, _⟩ => rw [if_pos (by decide +revert)]; rfl
    | ⟨1, _⟩ => rw [if_pos (by decide +revert)]; rfl)

/-- Row p of the body's result: the logistic function of (a + b) · w + c at that row. -/
theorem result_apply (x0 : Vec Ideal S8000x1 .f32) (x1 x2 x3 : Vec Ideal S1x1 .f32) (p : Fin 8000) (q : Fin 1) :
    k2_pay1 (F := Ideal) x0 x1 x2 x3 (ix2 p q)
      = Ideal.logistic ((x0 (ix2 p q) + x1 (ix2 (0 : Fin 1) (0 : Fin 1))) * x2 (ix2 (0 : Fin 1) (0 : Fin 1)) + x3 (ix2 (0 : Fin 1) (0 : Fin 1))) := by
  unfold k2_pay1
  simp only [shapeCast_self]
  show Ideal.logistic ((x0 (ix2 p q) + broadcastTo S8000x1 x1 broadcasts_S1x1_S8000x1 (ix2 p q)) * broadcastTo S8000x1 x2 broadcasts_S1x1_S8000x1 (ix2 p q)
    + broadcastTo S8000x1 x3 broadcasts_S1x1_S8000x1 (ix2 p q)) = _
  rw [param_apply x1 p q, param_apply x2 p q, param_apply x3 p q]

/-- The five index maps over the grid: the aggregated block and the output block move down one block per point, the
    three parameters stay. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of `head` of the arrays the region found. -/
theorem flushed_eq (c : Dev nD) (t : Fin cfg2.N) :
    (dat2 V c).flushed 4 t = ((cfg2.win 4).blk t).view.read (Elt Ideal) (head (V c main_v61) (V c main_v62) (V c main_arg7) (V c main_v63)) := by
  show (cfg2.win 4).cut (grid2.coords t) ((dat2 V c).after 4 t) = _
  rw [after2_4]
  unfold out2_4
  rw [View.canon_unit_zero origin]
  simp only [View.ld_unit_zero (S := S8000x1) origin, View.ld_unit_zero (S := S1x1) origin]
  obtain ⟨e00, e01, e10, e11, e20, e21, e30, e31, e40, e41⟩ := index_facts t
  funext j
  obtain ⟨p, q, rfl⟩ : ∃ (p : Fin 8000) (q : Fin 1), j = ix2 p q := ⟨j 0, j 1, eq_ix2 j⟩
  refine (result_apply (iblk2 V c 0 t) (iblk2 V c 1 t) (iblk2 V c 2 t) (iblk2 V c 3 t) p q).trans ?_
  show _ = head (V c main_v61) (V c main_v62) (V c main_arg7) (V c main_v63) (((cfg2.win 4).blk t).view.emb (ix2 p q))
  unfold head
  have hq : q.val = 0 := by omega
  have h0 : ((cfg2.win 0).blk t).view.emb (ix2 p q) = ix2 ((((cfg2.win 4).blk t).view.emb (ix2 p q)) 0) (0 : Fin 1) := by
    funext a; apply Fin.ext
    match a with
    | ⟨0, _⟩ => show win2_0.index t (0 : Fin 2) * 8000 + 1 * p.val = win2_4.index t (0 : Fin 2) * 8000 + 1 * p.val; omega
    | ⟨1, _⟩ => show win2_0.index t (1 : Fin 2) * 1 + 1 * q.val = 0; omega
  have h1 : ((cfg2.win 1).blk t).view.emb (ix2 (0 : Fin 1) (0 : Fin 1)) = ix2 (0 : Fin 1) (0 : Fin 1) := by
    funext a; apply Fin.ext
    match a with
    | ⟨0, _⟩ => show win2_1.index t (0 : Fin 2) * 1 + 1 * 0 = 0; omega
    | ⟨1, _⟩ => show win2_1.index t (1 : Fin 2) * 1 + 1 * 0 = 0; omega
  have h2 : ((cfg2.win 2).blk t).view.emb (ix2 (0 : Fin 1) (0 : Fin 1)) = ix2 (0 : Fin 1) (0 : Fin 1) := by
    funext a; apply Fin.ext
    match a with
    | ⟨0, _⟩ => show win2_2.index t (0 : Fin 2) * 1 + 1 * 0 = 0; omega
    | ⟨1, _⟩ => show win2_2.index t (1 : Fin 2) * 1 + 1 * 0 = 0; omega
  have h3 : ((cfg2.win 3).blk t).view.emb (ix2 (0 : Fin 1) (0 : Fin 1)) = ix2 (0 : Fin 1) (0 : Fin 1) := by
    funext a; apply Fin.ext
    match a with
    | ⟨0, _⟩ => show win2_3.index t (0 : Fin 2) * 1 + 1 * 0 = 0; omega
    | ⟨1, _⟩ => show win2_3.index t (1 : Fin 2) * 1 + 1 * 0 = 0; omega
  exact congrArg Ideal.logistic (congrArg₂ (· + ·) (congrArg₂ (· * ·) (congrArg₂ (· + ·)
    (congrArg (V c main_v61 : FVec Ideal S1000000x1 .f32) h0) (congrArg (V c main_v62 : FVec Ideal S1x1 .f32) h1))
    (congrArg (V c main_arg7 : FVec Ideal S1x1 .f32) h2)) (congrArg (V c main_v63 : FVec Ideal S1x1 .f32) h3))

/-- An index of the output array lies in point t's block iff each coordinate lies in the block's range on its axis. -/
theorem mem_block (t : Fin cfg2.N) (i : S1000000x1.Idx) :
    i ∈ ((cfg2.win 4).blk t).view.set ↔ ∀ a : Fin 2, win2_4.index t a * S8000x1.size a ≤ (i a).val ∧ (i a).val < win2_4.index t a * S8000x1.size a + S8000x1.size a := by
  show i ∈ ((View.whole main_v64).slice (win2_4.rect t)).set ↔ _
  rw [View.set_slice_whole, Rect.mem_set_unit]
  exact Iff.rfl

/-- Row r of the array lies in the block of point r / 8000: the blocks tile the array. -/
theorem covered (i : S1000000x1.Idx) : ∃ t : Fin cfg2.N, (cfg2.win 4).flush t = true ∧ i ∈ ((cfg2.win 4).blk t).view.set := by
  have hi0 : (i 0).val < 1000000 := (i 0).isLt
  have hi1 : (i 1).val < 1 := (i 1).isLt
  have hN : cfg2.N = 125 := N_2
  let t : Fin cfg2.N := ⟨(i 0).val / 8000, by rw [hN]; omega⟩
  obtain ⟨e00, e01, e10, e11, e20, e21, e30, e31, e40, e41⟩ := index_facts t
  refine ⟨t, flush2_4 t, ?_⟩
  rw [mem_block]
  intro a
  match a with
  | ⟨0, _⟩ =>
    show win2_4.index t (0 : Fin 2) * 8000 ≤ (i 0).val ∧ (i 0).val < win2_4.index t (0 : Fin 2) * 8000 + 8000
    rw [e40]; show (i 0).val / 8000 * 8000 ≤ (i 0).val ∧ (i 0).val < (i 0).val / 8000 * 8000 + 8000; omega
  | ⟨1, _⟩ =>
    show win2_4.index t (1 : Fin 2) * 1 ≤ (i 1).val ∧ (i 1).val < win2_4.index t (1 : Fin 2) * 1 + 1
    rw [e41]; omega

/-- When the region is left its output array holds `head` of the aggregated array and the three parameters it found. -/
theorem final (c : Dev nD) : (dat2 V c).arrAt 4 cfg2.N = head (V c main_v61) (V c main_v62) (V c main_arg7) (V c main_v63) :=
  (dat2 V c).arrAt_eq_of_cover 4 (head (V c main_v61) (V c main_v62) (V c main_arg7) (V c main_v63)) (fun t _ => flushed_eq V c t) covered

end Cert.KernelIdeal.HeadRegion

end
-- ==== Proof.RefStages.lean ====
/-
  The reference's three dense stages, read as the same whole-array functions as the kernel's regions.
  The reference contracts with a general dot product where the kernel multiplies and sums by hand:
  * x · W1 with a contracted axis of length one is the single product x[n, 0] · W1[0, j]: `lin1`;
  * max(a + b1, 0) · W2 with a contracted axis of length four is the four-term sum of `lin2`, the bias row and the weight
    column reaching the kernel reshaped to 1 × 4 rows;
  * ((a + b2) · Wl + bl), contracted over an axis of length one, then 1 / (1 + exp(−v)) spelt with a negation, an
    exponential, a sum and a quotient: on the extended reals that expression IS the logistic function, and the float word
    0x3F800000 is the real number 1: `head`.
  No step needs the inputs to be finite: a sum over one index is its term, and the sums on both sides have the same terms
  in the same order.
-/
import proofs.«176831_j60687887893291_2_alg».proof.Proof.Gen.ReferenceIdeal.Read
import proofs.«176831_j60687887893291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.ReferenceIdeal.Stages

open Cert.ReferenceIdeal Cert.ReferenceIdeal.Gen Cert.ReferenceIdeal.Read Cert.Gcn

/-! ## The contractions as sums over the contracted axis -/

/-- The four-term contraction, for any left operand. -/
theorem contract4 (y : FVec Ideal S1000000x4 .f32) (w : FVec Ideal S4x1 .f32) (i : S1000000x1.Idx) :
    Host.dotGeneral dot_S1000000x4_S4x1_S1000000x1_1_0_0_1_n_n none y w i = ∑ k : Fin 4, y (lidx_main_v51 i k) * w (ridx_main_v51 i k) := by
  simp only [Host.dotGeneral]
  rw [Ideal.dotGeneral_apply, ← Equiv.sum_comp (ValueIdx.contrEquiv1 dot_S1000000x4_S4x1_S1000000x1_1_0_0_1_n_n 4 rfl rfl).symm]
  refine Finset.sum_congr rfl fun k _ => ?_
  have hk := ValueIdx.contrEquiv1_symm_val dot_S1000000x4_S4x1_S1000000x1_1_0_0_1_n_n 4 rfl rfl k
  have el : dot_S1000000x4_S4x1_S1000000x1_1_0_0_1_n_n.lhsIdx i ((ValueIdx.contrEquiv1 dot_S1000000x4_S4x1_S1000000x1_1_0_0_1_n_n 4 rfl rfl).symm k) = lidx_main_v51 i k := funext fun a => Fin.ext (by
    match a with
    | ⟨0, _⟩ => exact lhs_main_v51_0 _ _
    | ⟨1, _⟩ => exact (lhs_main_v51_1 _ _).trans hk)
  have er : dot_S1000000x4_S4x1_S1000000x1_1_0_0_1_n_n.rhsIdx i ((ValueIdx.contrEquiv1 dot_S1000000x4_S4x1_S1000000x1_1_0_0_1_n_n 4 rfl rfl).symm k) = ridx_main_v51 i k := funext fun a => Fin.ext (by
    match a with
    | ⟨0, _⟩ => exact (rhs_main_v51_0 _ _).trans hk
    | ⟨1, _⟩ => exact rhs_main_v51_1 _ _)
  rw [el, er]

/-- The one-term contraction of the output map, for any left operand. -/
theorem contract1 (y : FVec Ideal S1000000x1 .f32) (w : FVec Ideal S1x1 .f32) (i : S1000000x1.Idx) :
    Host.dotGeneral dot_S1000000x1_S1x1_S1000000x1_1_0_0_1_n_n none y w i = ∑ k : Fin 1, y (lidx_main_v67 i k) * w (ridx_main_v67 i k) := by
  simp only [Host.dotGeneral]
  rw [Ideal.dotGeneral_apply, ← Equiv.sum_comp (ValueIdx.contrEquiv1 dot_S1000000x1_S1x1_S1000000x1_1_0_0_1_n_n 1 rfl rfl).symm]
  refine Finset.sum_congr rfl fun k _ => ?_
  have hk := ValueIdx.contrEquiv1_symm_val dot_S1000000x1_S1x1_S1000000x1_1_0_0_1_n_n 1 rfl rfl k
  have el : dot_S1000000x1_S1x1_S1000000x1_1_0_0_1_n_n.lhsIdx i ((ValueIdx.contrEquiv1 dot_S1000000x1_S1x1_S1000000x1_1_0_0_1_n_n 1 rfl rfl).symm k) = lidx_main_v67 i k := funext fun a => Fin.ext (by
    match a with
    | ⟨0, _⟩ => exact lhs_main_v67_0 _ _
    | ⟨1, _⟩ => exact (lhs_main_v67_1 _ _).trans hk)
  have er : dot_S1000000x1_S1x1_S1000000x1_1_0_0_1_n_n.rhsIdx i ((ValueIdx.contrEquiv1 dot_S1000000x1_S1x1_S1000000x1_1_0_0_1_n_n 1 rfl rfl).symm k) = ridx_main_v67 i k := funext fun a => Fin.ext (by
    match a with
    | ⟨0, _⟩ => exact (rhs_main_v67_0 _ _).trans hk
    | ⟨1, _⟩ => exact rhs_main_v67_1 _ _)
  rw [el, er]

/-! ## Small shapes read at an index -/

/-- A scalar broadcast over the 1 000 000 × 4 array reads the scalar everywhere. -/
theorem splat4_apply (z : FVec Ideal S_ .f32) (j : S1000000x4.Idx) :
    broadcastInDim S1000000x4 ![] bcast_S_S1000000x4 z j = z ix0 :=
  broadcastInDim_apply ![] bcast_S_S1000000x4 z j ix0 (fun a => a.elim0)

/-- A scalar broadcast over the 1 000 000 × 1 array reads the scalar everywhere. -/
theorem splat1_apply (z : FVec Ideal S_ .f32) (j : S1000000x1.Idx) :
    broadcastInDim S1000000x1 ![] bcast_S_S1000000x1 z j = z ix0 :=
  broadcastInDim_apply ![] bcast_S_S1000000x1 z j ix0 (fun a => a.elim0)

/-- The hidden bias, a vector of four, broadcast to a row and then down the nodes, reads its entry k in column k. -/
theorem bias4_apply (b : FVec Ideal S4 .f32) (n : Fin 1000000) (k : Fin 4) :
    broadcastInDim S1000000x4 ![0, 1] bcast_S1x4_S1000000x4_0_1 (broadcastInDim S1x4 ![1] bcast_S4_S1x4_1 b) (ix2 n k) = b (ix1 k) := by
  refine (broadcastInDim_apply ![0, 1] bcast_S1x4_S1000000x4_0_1 _ (ix2 n k) (ix2 (0 : Fin 1) k) (fun a => by
    match a with
    | ⟨0, _⟩ => rw [if_pos (by decide +revert)]; rfl
    | ⟨1, _⟩ => rw [if_neg (by decide +revert)]; rfl)).trans ?_
  exact broadcastInDim_apply ![1] bcast_S4_S1x4_1 b (ix2 (0 : Fin 1) k) (ix1 k) (fun a => by
    match a with
    | ⟨0, _⟩ => rw [if_neg (by decide +revert)]; rfl)

/-- An output-side bias, a vector of one, broadcast to 1 × 1 and then down the nodes, reads its one entry everywhere. -/
theorem bias1_apply (b : FVec Ideal S1 .f32) (n : Fin 1000000) (q : Fin 1) :
    broadcastInDim S1000000x1 ![0, 1] bcast_S1x1_S1000000x1_0_1 (broadcastInDim S1x1 ![1] bcast_S1_S1x1_1 b) (ix2 n q) = b (ix1 (0 : Fin 1)) := by
  refine (broadcastInDim_apply ![0, 1] bcast_S1x1_S1000000x1_0_1 _ (ix2 n q) (ix2 (0 : Fin 1) (0 : Fin 1)) (fun a => by
    match a with
    | ⟨0, _⟩ => rw [if_pos (by decide +revert)]; rfl
    | ⟨1, _⟩ => rw [if_pos (by decide +revert)]; rfl)).trans ?_
  exact broadcastInDim_apply ![1] bcast_S1_S1x1_1 b (ix2 (0 : Fin 1) (0 : Fin 1)) (ix1 (0 : Fin 1)) (fun a => by
    match a with
    | ⟨0, _⟩ => rw [if_pos (by decide +revert)]; rfl)

/-- A 4 × 1 column viewed as a 1 × 4 row reads, in column k, the column's entry k. -/
theorem column_as_row (w : FVec Ideal S4x1 .f32) (h : S4x1.ShapeCasts S1x4) (k : Fin 4) :
    shapeCast S1x4 w h (ix2 (0 : Fin 1) k) = w (ix2 k (0 : Fin 1)) :=
  shapeCast_apply w h (ix2 (0 : Fin 1) k) (ix2 k (0 : Fin 1)) (by
    rw [Shape.rowMajor_val_two, Shape.rowMajor_val_two]
    show k.val * 1 + 0 = 0 * 4 + k.val
    omega)

/-- The float word 0x3F800000 is the real number one. -/
theorem one_word : Ideal.ofBits .f32 0x3F800000#32 = 1 := by
  simp [Ideal.ofBits, Ideal.ieee, -EReal.coe_mul]; norm_num

/-! ## The three stages -/

/-- The first layer's contraction over its axis of length one is the single product. -/
theorem stage1 (x : FVec Ideal S1000000x1 .f32) (w : FVec Ideal S1x4 .f32) :
    Host.dotGeneral dot_S1000000x1_S1x4_S1000000x4_1_0_0_1_n_n none x w = lin1 x w := by
  funext i
  refine (val_main_v33_apply x w i).trans ?_
  rw [Fin.sum_univ_one]
  have hl : lidx_main_v33 i (0 : Fin 1) = ix2 (i 0) (0 : Fin 1) := funext fun a => by
    match a with
    | ⟨0, _⟩ => rfl
    | ⟨1, _⟩ => rfl
  have hr : ridx_main_v33 i (0 : Fin 1) = ix2 (0 : Fin 1) (i 1) := funext fun a => by
    match a with
    | ⟨0, _⟩ => rfl
    | ⟨1, _⟩ => rfl
  rw [hl, hr]
  rfl

/-- Bias, clamp and the four-term contraction are `lin2` of the aggregated array and the two reshaped parameters. -/
theorem stage2 (A : FVec Ideal S1000000x4 .f32) (b : FVec Ideal S4 .f32) (w : FVec Ideal S4x1 .f32)
    (h1 : S4.ShapeCasts S1x4) (h2 : S4x1.ShapeCasts S1x4) :
    Host.dotGeneral dot_S1000000x4_S4x1_S1000000x1_1_0_0_1_n_n none
      (maximumf (addf A (broadcastInDim S1000000x4 ![0, 1] bcast_S1x4_S1000000x4_0_1 (broadcastInDim S1x4 ![1] bcast_S4_S1x4_1 b)))
        (broadcastInDim S1000000x4 ![] bcast_S_S1000000x4 (constant (F := Ideal) S_ .f32 0x00000000#32))) w
      = lin2 A (shapeCast S1x4 b h1) (shapeCast S1x4 w h2) := by
  funext i
  refine (contract4 _ w i).trans ?_
  unfold lin2
  refine Finset.sum_congr rfl fun k _ => ?_
  have hl : lidx_main_v51 i k = ix2 (i 0) k := funext fun a => by
    match a with
    | ⟨0, _⟩ => rfl
    | ⟨1, _⟩ => rfl
  have hr : ridx_main_v51 i k = ix2 k (0 : Fin 1) := funext fun a => by
    match a with
    | ⟨0, _⟩ => rfl
    | ⟨1, _⟩ => exact Fin.ext (by have h1 : (i 1).val < 1 := (i 1).isLt; show (i 1).val = 0; omega)
  rw [hl, hr, shapeCast_a_1a_apply b h1 (0 : Fin 1) k, column_as_row w h2 k]
  show max (A (ix2 (i 0) k) + broadcastInDim S1000000x4 ![0, 1] bcast_S1x4_S1000000x4_0_1 (broadcastInDim S1x4 ![1] bcast_S4_S1x4_1 b) (ix2 (i 0) k))
      (broadcastInDim S1000000x4 ![] bcast_S_S1000000x4 (constant (F := Ideal) S_ .f32 0x00000000#32) (ix2 (i 0) k)) * w (ix2 k (0 : Fin 1)) = _
  rw [bias4_apply b (i 0) k, splat4_apply]
  rfl

/-- Bias, the one-term contraction, bias, and the spelt-out logistic are `head` of the aggregated array and the
    reshaped parameters. -/
theorem stage3 (A : FVec Ideal S1000000x1 .f32) (b bl : FVec Ideal S1 .f32) (wl : FVec Ideal S1x1 .f32) (h : S1.ShapeCasts S1x1) :
    Host.divf (broadcastInDim S1000000x1 ![] bcast_S_S1000000x1 (constant (F := Ideal) S_ .f32 0x3F800000#32))
      (addf (broadcastInDim S1000000x1 ![] bcast_S_S1000000x1 (constant (F := Ideal) S_ .f32 0x3F800000#32))
        (Host.exp (Host.negf (addf (Host.dotGeneral dot_S1000000x1_S1x1_S1000000x1_1_0_0_1_n_n none
          (addf A (broadcastInDim S1000000x1 ![0, 1] bcast_S1x1_S1000000x1_0_1 (broadcastInDim S1x1 ![1] bcast_S1_S1x1_1 b))) wl)
          (broadcastInDim S1000000x1 ![0, 1] bcast_S1x1_S1000000x1_0_1 (broadcastInDim S1x1 ![1] bcast_S1_S1x1_1 bl))))))
      = head A (shapeCast S1x1 b h) wl (shapeCast S1x1 bl h) := by
  funext i
  obtain ⟨n, q, rfl⟩ : ∃ (n : Fin 1000000) (q : Fin 1), i = ix2 n q := ⟨i 0, i 1, eq_ix2 i⟩
  unfold head
  rw [shapeCast_a_1a_apply b h (0 : Fin 1) (0 : Fin 1), shapeCast_a_1a_apply bl h (0 : Fin 1) (0 : Fin 1)]
  show Ideal.div (broadcastInDim S1000000x1 ![] bcast_S_S1000000x1 (constant (F := Ideal) S_ .f32 0x3F800000#32) (ix2 n q))
      (broadcastInDim S1000000x1 ![] bcast_S_S1000000x1 (constant (F := Ideal) S_ .f32 0x3F800000#32) (ix2 n q)
        + Ideal.exp (-(Host.dotGeneral dot_S1000000x1_S1x1_S1000000x1_1_0_0_1_n_n none
          (addf A (broadcastInDim S1000000x1 ![0, 1] bcast_S1x1_S1000000x1_0_1 (broadcastInDim S1x1 ![1] bcast_S1_S1x1_1 b))) wl (ix2 n q)
          + broadcastInDim S1000000x1 ![0, 1] bcast_S1x1_S1000000x1_0_1 (broadcastInDim S1x1 ![1] bcast_S1_S1x1_1 bl) (ix2 n q)))) = _
  rw [splat1_apply, bias1_apply bl n q, contract1, Fin.sum_univ_one]
  have hl : lidx_main_v67 (ix2 n q) (0 : Fin 1) = ix2 n (0 : Fin 1) := funext fun a => by
    match a with
    | ⟨0, _⟩ => rfl
    | ⟨1, _⟩ => rfl
  have hr : ridx_main_v67 (ix2 n q) (0 : Fin 1) = ix2 (0 : Fin 1) (0 : Fin 1) := funext fun a => by
    match a with
    | ⟨0, _⟩ => rfl
    | ⟨1, _⟩ => exact Fin.ext (by have h1 : q.val < 1 := q.isLt; show q.val = 0; omega)
  rw [hl, hr]
  show Ideal.div (Ideal.ofBits .f32 0x3F800000#32) (Ideal.ofBits .f32 0x3F800000#32 + Ideal.exp (-((A (ix2 n (0 : Fin 1))
      + broadcastInDim S1000000x1 ![0, 1] bcast_S1x1_S1000000x1_0_1 (broadcastInDim S1x1 ![1] bcast_S1_S1x1_1 b) (ix2 n (0 : Fin 1))) * wl (ix2 (0 : Fin 1) (0 : Fin 1))
      + bl (ix1 (0 : Fin 1))))) = _
  rw [bias1_apply b n (0 : Fin 1), one_word]
  rfl

end Cert.ReferenceIdeal.Stages

end
-- ==== Proof.Bridge.lean ====
/-
  The bridge between the two idealized programs. Both compute a two-layer graph convolution with the same host
  operations for everything that follows the edges — the symmetric degree normalisation, and after each dense stage a
  gather along the edges, a scaling, and a scatter-add into the target nodes — and differ only in the three dense stages:
  the kernel runs each as a pipelined region over 125 row blocks, the reference as a general contraction on the host.

  `value` is the network's output as ONE function of the nine argument arrays: `head` of the aggregation of `lin2` of the
  aggregation of `lin1`, the aggregations and the normalisation spelt once, with the host operations both programs print.
  * The reference's result is `value` of its arguments: its three contractions are `lin1`, `lin2`, `head`, and the rest
    is the same text.
  * The kernel's result buffer ends at the contents the segment fold assigns it. Reading the fold back from the last
    region to the launch — a region's output array is its whole-array function of the arrays it found, a host stretch's
    result is its operations applied to what the stretch found, every other buffer is carried along unchanged — gives
    `value` of the kernel's arguments.
  The aggregations are never opened: they are the same function on both sides.
-/
import proofs.«176831_j60687887893291_2_alg».proof.Defs
import proofs.«176831_j60687887893291_2_alg».proof.Proof.Gen.KernelIdeal.Frame
import proofs.«176831_j60687887893291_2_alg».proof.Proof.Gen.ReferenceIdeal.Read
import proofs.«176831_j60687887893291_2_alg».proof.Proof.Spec
import proofs.«176831_j60687887893291_2_alg».proof.Proof.Lin1Region
import proofs.«176831_j60687887893291_2_alg».proof.Proof.Lin2Region
import proofs.«176831_j60687887893291_2_alg».proof.Proof.HeadRegion
import proofs.«176831_j60687887893291_2_alg».proof.Proof.RefStages
import Idealize.ShloMosaic.Lib.StableHlo.Run

noncomputable section

open Idealize.ShloMosaic Idealize.ShloMosaic.TcCoe Idealize.SL.Sem Idealize.ShloMosaic.StableHlo

namespace Cert.Gcn

section Common
open Cert.ReferenceIdeal Cert.ReferenceIdeal.Gen Cert.ReferenceIdeal.Read

/-- A gather's start index: a negative node index counts from the end of the node axis. -/
def wrap (e : (⟨S17000000, .i32⟩ : BufTy).Contents (Elt Ideal)) : (⟨S17000000, .i32⟩ : BufTy).Contents (Elt Ideal) :=
  select (cmpi .slt e (broadcastInDim S17000000 ![] bcast_S_S17000000 (constantI S_ 32 0#32)))
    (addi e (broadcastInDim S17000000 ![] bcast_S_S17000000 (constantI S_ 32 1000000#32))) e

/-- The neighbourhood aggregation of a 4-feature node array: gather the source node's row along every edge (self loops
    included), scale it by the edge's normalisation, and add it into the target node's row, starting from zero. -/
def aggregate4 (h : (⟨S1000000x4, .f32⟩ : BufTy).Contents (Elt Ideal)) (nrm : (⟨S17000000, .f32⟩ : BufTy).Contents (Elt Ideal))
    (row col : (⟨S17000000, .i32⟩ : BufTy).Contents (Elt Ideal)) : (⟨S1000000x4, .f32⟩ : BufTy).Contents (Elt Ideal) :=
  Host.scatterAdd scatter_S1000000x4_S17000000x1_S17000000x4_1_0_0_1
    (broadcastInDim S1000000x4 ![] bcast_S_S1000000x4 (constant (F := Ideal) S_ .f32 0x00000000#32))
    (broadcastInDim S17000000x1 ![0] bcast_S17000000_S17000000x1_0 col)
    (mulf (broadcastInDim S17000000x4 ![0, 1] bcast_S17000000x1_S17000000x4_0_1 (broadcastInDim S17000000x1 ![0] bcast_S17000000_S17000000x1_0 nrm))
      (Host.gather gather_S1000000x4_S17000000x1_S17000000x4_1_0_n_n_0_1_14 h
        (broadcastInDim S17000000x1 ![0] bcast_S17000000_S17000000x1_0 (wrap row))))

/-- The same aggregation of a 1-feature node array. -/
def aggregate1 (h : (⟨S1000000x1, .f32⟩ : BufTy).Contents (Elt Ideal)) (nrm : (⟨S17000000, .f32⟩ : BufTy).Contents (Elt Ideal))
    (row col : (⟨S17000000, .i32⟩ : BufTy).Contents (Elt Ideal)) : (⟨S1000000x1, .f32⟩ : BufTy).Contents (Elt Ideal) :=
  Host.scatterAdd scatter_S1000000x1_S17000000x1_S17000000x1_1_0_0_1
    (broadcastInDim S1000000x1 ![] bcast_S_S1000000x1 (constant (F := Ideal) S_ .f32 0x00000000#32))
    (broadcastInDim S17000000x1 ![0] bcast_S17000000_S17000000x1_0 col)
    (mulf (broadcastInDim S17000000x1 ![0] bcast_S17000000_S17000000x1_0 nrm)
      (Host.gather gather_S1000000x1_S17000000x1_S17000000x1_1_0_n_n_0_1_11 h
        (broadcastInDim S17000000x1 ![0] bcast_S17000000_S17000000x1_0 (wrap row))))

/-- The symmetric normalisation of every edge: the source node's inverse square-root degree, times the edge's weight,
    times the target node's inverse square-root degree. -/
def normOf (dis : (⟨S1000000, .f32⟩ : BufTy).Contents (Elt Ideal)) (ew : (⟨S17000000, .f32⟩ : BufTy).Contents (Elt Ideal))
    (row col : (⟨S17000000, .i32⟩ : BufTy).Contents (Elt Ideal)) : (⟨S17000000, .f32⟩ : BufTy).Contents (Elt Ideal) :=
  mulf (F := Ideal) (φ := .f32) (mulf (F := Ideal) (φ := .f32) (Host.gather gather_S1000000_S17000000x1_S17000000_n_0_n_n_0_1_1 dis
        (broadcastInDim S17000000x1 ![0] bcast_S17000000_S17000000x1_0 (wrap row))) ew)
    (Host.gather gather_S1000000_S17000000x1_S17000000_n_0_n_n_0_1_1 dis
      (broadcastInDim S17000000x1 ![0] bcast_S17000000_S17000000x1_0 (wrap col)))

/-- The reference's normalisation stage is `normOf` of its inverse square-root degrees (zero where the degree is not
    positive), its edge weights with the self loops' ones appended, and its two edge index lists. -/
theorem norm_eq (x1 : (⟨S2x16000000, .i32⟩ : BufTy).Contents (Elt Ideal)) (x2 : (⟨S16000000, .f32⟩ : BufTy).Contents (Elt Ideal)) :
    normOf (select (val_main_v13 (F := Ideal) x1 x2) (val_main_v14 (F := Ideal) x1 x2) (val_main_v15 (F := Ideal)))
      (val_main_v8 (F := Ideal) x2) (val_main_v5 (F := Ideal) x1) (val_main_v6 (F := Ideal) x1) = val_main_v32 (F := Ideal) x1 x2 := rfl

end Common

section Value
open Cert.ReferenceIdeal Cert.ReferenceIdeal.Gen Cert.ReferenceIdeal.Read

/-- The network's output as one function of the nine arguments (features, edge list, edge weights, and the six
    parameter arrays): the normalisation and the two edge index lists are the reference's own stage functions of the
    edge list and the edge weights; the bias vectors and the second layer's weight column enter reshaped to rows. -/
def value (x0 : (⟨S1000000x1, .f32⟩ : BufTy).Contents (Elt Ideal)) (x1 : (⟨S2x16000000, .i32⟩ : BufTy).Contents (Elt Ideal))
    (x2 : (⟨S16000000, .f32⟩ : BufTy).Contents (Elt Ideal)) (x3 : (⟨S1x4, .f32⟩ : BufTy).Contents (Elt Ideal))
    (x4 : (⟨S4, .f32⟩ : BufTy).Contents (Elt Ideal)) (x5 : (⟨S4x1, .f32⟩ : BufTy).Contents (Elt Ideal))
    (x6 : (⟨S1, .f32⟩ : BufTy).Contents (Elt Ideal)) (x7 : (⟨S1x1, .f32⟩ : BufTy).Contents (Elt Ideal))
    (x8 : (⟨S1, .f32⟩ : BufTy).Contents (Elt Ideal)) : (⟨S1000000x1, .f32⟩ : BufTy).Contents (Elt Ideal) :=
  head (aggregate1
      (lin2 (aggregate4 (lin1 x0 x3) (val_main_v32 (F := Ideal) x1 x2) (val_main_v5 (F := Ideal) x1) (val_main_v6 (F := Ideal) x1))
        (shapeCast S1x4 x4 Cert.KernelIdeal.Gen.shapeCasts_S4_S1x4) (shapeCast S1x4 x5 Cert.KernelIdeal.Gen.shapeCasts_S4x1_S1x4))
      (val_main_v32 (F := Ideal) x1 x2) (val_main_v5 (F := Ideal) x1) (val_main_v6 (F := Ideal) x1))
    (shapeCast S1x1 x6 Cert.KernelIdeal.Gen.shapeCasts_S1_S1x1) x7 (shapeCast S1x1 x8 Cert.KernelIdeal.Gen.shapeCasts_S1_S1x1)

/-- The reference's result term is `value` of its arguments: undo the three stage readings inside `value` and the two
    texts are the same. -/
theorem ref_value (x0 : (⟨S1000000x1, .f32⟩ : BufTy).Contents (Elt Ideal)) (x1 : (⟨S2x16000000, .i32⟩ : BufTy).Contents (Elt Ideal))
    (x2 : (⟨S16000000, .f32⟩ : BufTy).Contents (Elt Ideal)) (x3 : (⟨S1x4, .f32⟩ : BufTy).Contents (Elt Ideal))
    (x4 : (⟨S4, .f32⟩ : BufTy).Contents (Elt Ideal)) (x5 : (⟨S4x1, .f32⟩ : BufTy).Contents (Elt Ideal))
    (x6 : (⟨S1, .f32⟩ : BufTy).Contents (Elt Ideal)) (x7 : (⟨S1x1, .f32⟩ : BufTy).Contents (Elt Ideal))
    (x8 : (⟨S1, .f32⟩ : BufTy).Contents (Elt Ideal)) :
    val_main_v76 (F := Ideal) x0 x1 x2 x3 x4 x5 x6 x7 x8 = value x0 x1 x2 x3 x4 x5 x6 x7 x8 := by
  unfold value
  rw [← Cert.ReferenceIdeal.Stages.stage1, ← Cert.ReferenceIdeal.Stages.stage2, ← Cert.ReferenceIdeal.Stages.stage3]
  rfl

end Value

end Cert.Gcn

namespace Cert.KernelIdeal.Fold

open Cert.KernelIdeal Cert.KernelIdeal.Gen Cert.Gcn

variable (m : (ℓ : Loc nD τ sig) → Buf (Elt Ideal) ℓ) (ρ : Dev nD → PrngReg)

/-! ## The last host stretch, from the second region's exit -/

theorem w7_v61 (c : Dev nD) : W7 m ρ c (Proc.devRef .tc main_v61)
    = aggregate1 (W6 m ρ c (Proc.devRef .tc main_v49)) (W6 m ρ c (Proc.devRef .tc main_v32)) (W6 m ρ c (Proc.devRef .tc main_v5)) (W6 m ρ c (Proc.devRef .tc main_v6)) := by
  show StableHlo.after hostOps2 (W6 m ρ c) (Proc.devRef .tc main_v61) = _
  after_results_simp
  rfl
theorem w7_v62 (c : Dev nD) : W7 m ρ c (Proc.devRef .tc main_v62) = shapeCast S1x1 (W6 m ρ c (Proc.devRef .tc main_arg6)) shapeCasts_S1_S1x1 := by
  show StableHlo.after hostOps2 (W6 m ρ c) (Proc.devRef .tc main_v62) = _
  after_results_simp
  rfl
theorem w7_v63 (c : Dev nD) : W7 m ρ c (Proc.devRef .tc main_v63) = shapeCast S1x1 (W6 m ρ c (Proc.devRef .tc main_arg8)) shapeCasts_S1_S1x1 := by
  show StableHlo.after hostOps2 (W6 m ρ c) (Proc.devRef .tc main_v63) = _
  after_results_simp
  rfl
theorem w7_arg7 (c : Dev nD) : W7 m ρ c (Proc.devRef .tc main_arg7) = W6 m ρ c (Proc.devRef .tc main_arg7) := by
  show StableHlo.after hostOps2 (W6 m ρ c) (Proc.devRef .tc main_arg7) = _
  after_results_simp

/-! ## The second region, and the stretch before it from the first region's exit -/

theorem w6_v49 (c : Dev nD) : W6 m ρ c (Proc.devRef .tc main_v49)
    = lin2 (W5 m ρ c (Proc.devRef .tc main_v46)) (W5 m ρ c (Proc.devRef .tc main_v47)) (W5 m ρ c (Proc.devRef .tc main_v48)) :=
  (W6_arr m ρ c 3).trans (Cert.KernelIdeal.Lin2Region.final (V5 m ρ) c)
theorem w5_v46 (c : Dev nD) : W5 m ρ c (Proc.devRef .tc main_v46)
    = aggregate4 (W4 m ρ c (Proc.devRef .tc main_v33)) (W4 m ρ c (Proc.devRef .tc main_v32)) (W4 m ρ c (Proc.devRef .tc main_v5)) (W4 m ρ c (Proc.devRef .tc main_v6)) := by
  show StableHlo.after hostOps1 (W4 m ρ c) (Proc.devRef .tc main_v46) = _
  after_results_simp
  rfl
theorem w5_v47 (c : Dev nD) : W5 m ρ c (Proc.devRef .tc main_v47) = shapeCast S1x4 (W4 m ρ c (Proc.devRef .tc main_arg4)) shapeCasts_S4_S1x4 := by
  show StableHlo.after hostOps1 (W4 m ρ c) (Proc.devRef .tc main_v47) = _
  after_results_simp
  rfl
theorem w5_v48 (c : Dev nD) : W5 m ρ c (Proc.devRef .tc main_v48) = shapeCast S1x4 (W4 m ρ c (Proc.devRef .tc main_arg5)) shapeCasts_S4x1_S1x4 := by
  show StableHlo.after hostOps1 (W4 m ρ c) (Proc.devRef .tc main_v48) = _
  after_results_simp
  rfl

/-! ## The first region, and the stretches before it from the launch -/

theorem w4_v33 (c : Dev nD) : W4 m ρ c (Proc.devRef .tc main_v33) = lin1 (W3 m ρ c (Proc.devRef .tc main_arg0)) (W3 m ρ c (Proc.devRef .tc main_arg3)) :=
  (W4_arr m ρ c 2).trans (Cert.KernelIdeal.Lin1Region.final (V3 m ρ) c)
theorem w3_v32 (c : Dev nD) : W3 m ρ c (Proc.devRef .tc main_v32)
    = normOf (W2 m ρ c (Proc.devRef .tc main_v16)) (W2 m ρ c (Proc.devRef .tc main_v8)) (W2 m ρ c (Proc.devRef .tc main_v5)) (W2 m ρ c (Proc.devRef .tc main_v6)) := by
  show StableHlo.after hostOps0_2 (W2 m ρ c) (Proc.devRef .tc main_v32) = _
  generalize W2 m ρ c = X
  after_results_simp
  rfl
theorem w2_v16 (c : Dev nD) : W2 m ρ c (Proc.devRef .tc main_v16) = select (W1 m ρ c (Proc.devRef .tc main_v13)) (W1 m ρ c (Proc.devRef .tc main_v14)) (W1 m ρ c (Proc.devRef .tc main_v15)) := by
  show StableHlo.after hostOps0_1 (W1 m ρ c) (Proc.devRef .tc main_v16) = _
  generalize W1 m ρ c = X
  after_results_simp
  rfl
theorem w2_v8 (c : Dev nD) : W2 m ρ c (Proc.devRef .tc main_v8) = W1 m ρ c (Proc.devRef .tc main_v8) := by
  show StableHlo.after hostOps0_1 (W1 m ρ c) (Proc.devRef .tc main_v8) = _
  generalize W1 m ρ c = X
  after_results_simp
theorem w2_v5 (c : Dev nD) : W2 m ρ c (Proc.devRef .tc main_v5) = W1 m ρ c (Proc.devRef .tc main_v5) := by
  show StableHlo.after hostOps0_1 (W1 m ρ c) (Proc.devRef .tc main_v5) = _
  generalize W1 m ρ c = X
  after_results_simp
theorem w2_v6 (c : Dev nD) : W2 m ρ c (Proc.devRef .tc main_v6) = W1 m ρ c (Proc.devRef .tc main_v6) := by
  show StableHlo.after hostOps0_1 (W1 m ρ c) (Proc.devRef .tc main_v6) = _
  generalize W1 m ρ c = X
  after_results_simp
theorem w1_v13 (c : Dev nD) : W1 m ρ c (Proc.devRef .tc main_v13) = Cert.ReferenceIdeal.Read.val_main_v13 (F := Ideal) (m ((c.tc : Thread nD τ).loc main_arg1)) (m ((c.tc : Thread nD τ).loc main_arg2)) := by
  show StableHlo.after hostOps0 (W0 m ρ c) (Proc.devRef .tc main_v13) = _
  after_results_simp
  rfl
theorem w1_v14 (c : Dev nD) : W1 m ρ c (Proc.devRef .tc main_v14) = Cert.ReferenceIdeal.Read.val_main_v14 (F := Ideal) (m ((c.tc : Thread nD τ).loc main_arg1)) (m ((c.tc : Thread nD τ).loc main_arg2)) := by
  show StableHlo.after hostOps0 (W0 m ρ c) (Proc.devRef .tc main_v14) = _
  after_results_simp
  rfl
theorem w1_v15 (c : Dev nD) : W1 m ρ c (Proc.devRef .tc main_v15) = Cert.ReferenceIdeal.Read.val_main_v15 (F := Ideal) := by
  show StableHlo.after hostOps0 (W0 m ρ c) (Proc.devRef .tc main_v15) = _
  after_results_simp
  rfl
theorem w1_v8 (c : Dev nD) : W1 m ρ c (Proc.devRef .tc main_v8) = Cert.ReferenceIdeal.Read.val_main_v8 (F := Ideal) (m ((c.tc : Thread nD τ).loc main_arg2)) := by
  show StableHlo.after hostOps0 (W0 m ρ c) (Proc.devRef .tc main_v8) = _
  after_results_simp
  rfl
theorem w1_v5 (c : Dev nD) : W1 m ρ c (Proc.devRef .tc main_v5) = Cert.ReferenceIdeal.Read.val_main_v5 (F := Ideal) (m ((c.tc : Thread nD τ).loc main_arg1)) := by
  show StableHlo.after hostOps0 (W0 m ρ c) (Proc.devRef .tc main_v5) = _
  after_results_simp
  rfl
theorem w1_v6 (c : Dev nD) : W1 m ρ c (Proc.devRef .tc main_v6) = Cert.ReferenceIdeal.Read.val_main_v6 (F := Ideal) (m ((c.tc : Thread nD τ).loc main_arg1)) := by
  show StableHlo.after hostOps0 (W0 m ρ c) (Proc.devRef .tc main_v6) = _
  after_results_simp
  rfl
theorem w3_v5 (c : Dev nD) : W3 m ρ c (Proc.devRef .tc main_v5) = Cert.ReferenceIdeal.Read.val_main_v5 (F := Ideal) (m ((c.tc : Thread nD τ).loc main_arg1)) := by
  show StableHlo.after hostOps0_2 (StableHlo.after hostOps0_1 (StableHlo.after hostOps0 (W0 m ρ c))) (Proc.devRef .tc main_v5) = _
  after_results_simp
  rfl
theorem w3_v6 (c : Dev nD) : W3 m ρ c (Proc.devRef .tc main_v6) = Cert.ReferenceIdeal.Read.val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results_simp
  rfl

/-! ## Buffers carried unchanged through a region or a stretch -/

theorem w6_v32 (c : Dev nD) : W6 m ρ c (Proc.devRef .tc main_v32) = W5 m ρ c (Proc.devRef .tc main_v32) := W6_of_ne m ρ c main_v32 (by decide)
theorem w6_v5 (c : Dev nD) : W6 m ρ c (Proc.devRef .tc main_v5) = W5 m ρ c (Proc.devRef .tc main_v5) := W6_of_ne m ρ c main_v5 (by decide)
theorem w6_v6 (c : Dev nD) : W6 m ρ c (Proc.devRef .tc main_v6) = W5 m ρ c (Proc.devRef .tc main_v6) := W6_of_ne m ρ c main_v6 (by decide)
theorem w6_arg6 (c : Dev nD) : W6 m ρ c (Proc.devRef .tc main_arg6) = W5 m ρ c (Proc.devRef .tc main_arg6) := W6_of_ne m ρ c main_arg6 (by decide)
theorem w6_arg7 (c : Dev nD) : W6 m ρ c (Proc.devRef .tc main_arg7) = W5 m ρ c (Proc.devRef .tc main_arg7) := W6_of_ne m ρ c main_arg7 (by decide)
theorem w6_arg8 (c : Dev nD) : W6 m ρ c (Proc.devRef .tc main_arg8) = W5 m ρ c (Proc.devRef .tc main_arg8) := W6_of_ne m ρ c main_arg8 (by decide)
theorem w5_v32 (c : Dev nD) : W5 m ρ c (Proc.devRef .tc main_v32) = W4 m ρ c (Proc.devRef .tc main_v32) := by
  show StableHlo.after hostOps1 (W4 m ρ c) (Proc.devRef .tc main_v32) = _
  after_results_simp
theorem w5_v5 (c : Dev nD) : W5 m ρ c (Proc.devRef .tc main_v5) = W4 m ρ c (Proc.devRef .tc main_v5) := by
  show StableHlo.after hostOps1 (W4 m ρ c) (Proc.devRef .tc main_v5) = _
  after_results_simp
theorem w5_v6 (c : Dev nD) : W5 m ρ c (Proc.devRef .tc main_v6) = W4 m ρ c (Proc.devRef .tc main_v6) := by
  show StableHlo.after hostOps1 (W4 m ρ c) (Proc.devRef .tc main_v6) = _
  after_results_simp
theorem w5_arg6 (c : Dev nD) : W5 m ρ c (Proc.devRef .tc main_arg6) = W4 m ρ c (Proc.devRef .tc main_arg6) := by
  show StableHlo.after hostOps1 (W4 m ρ c) (Proc.devRef .tc main_arg6) = _
  after_results_simp
theorem w5_arg7 (c : Dev nD) : W5 m ρ c (Proc.devRef .tc main_arg7) = W4 m ρ c (Proc.devRef .tc main_arg7) := by
  show StableHlo.after hostOps1 (W4 m ρ c) (Proc.devRef .tc main_arg7) = _
  after_results_simp
theorem w5_arg8 (c : Dev nD) : W5 m ρ c (Proc.devRef .tc main_arg8) = W4 m ρ c (Proc.devRef .tc main_arg8) := by
  show StableHlo.after hostOps1 (W4 m ρ c) (Proc.devRef .tc main_arg8) = _
  after_results_simp
theorem w4_v32 (c : Dev nD) : W4 m ρ c (Proc.devRef .tc main_v32) = W3 m ρ c (Proc.devRef .tc main_v32) := W4_of_ne m ρ c main_v32 (by decide)
theorem w4_v5 (c : Dev nD) : W4 m ρ c (Proc.devRef .tc main_v5) = W3 m ρ c (Proc.devRef .tc main_v5) := W4_of_ne m ρ c main_v5 (by decide)
theorem w4_v6 (c : Dev nD) : W4 m ρ c (Proc.devRef .tc main_v6) = W3 m ρ c (Proc.devRef .tc main_v6) := W4_of_ne m ρ c main_v6 (by decide)
theorem w4_arg4 (c : Dev nD) : W4 m ρ c (Proc.devRef .tc main_arg4) = W3 m ρ c (Proc.devRef .tc main_arg4) := W4_of_ne m ρ c main_arg4 (by decide)
theorem w4_arg5 (c : Dev nD) : W4 m ρ c (Proc.devRef .tc main_arg5) = W3 m ρ c (Proc.devRef .tc main_arg5) := W4_of_ne m ρ c main_arg5 (by decide)
theorem w4_arg6 (c : Dev nD) : W4 m ρ c (Proc.devRef .tc main_arg6) = W3 m ρ c (Proc.devRef .tc main_arg6) := W4_of_ne m ρ c main_arg6 (by decide)
theorem w4_arg7 (c : Dev nD) : W4 m ρ c (Proc.devRef .tc main_arg7) = W3 m ρ c (Proc.devRef .tc main_arg7) := W4_of_ne m ρ c main_arg7 (by decide)
theorem w4_arg8 (c : Dev nD) : W4 m ρ c (Proc.devRef .tc main_arg8) = W3 m ρ c (Proc.devRef .tc main_arg8) := W4_of_ne m ρ c main_arg8 (by decide)
theorem w3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp
theorem w3_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp
theorem w3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp
theorem w3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp
theorem w3_arg6 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  after_results_simp
theorem w3_arg7 (c : Dev nD) : W3 m ρ c (Proc.devRef .tc main_arg7) = m ((c.tc : Thread nD τ).loc main_arg7) := by
  show StableHlo.after hostOps0_2 (StableHlo.after hostOps0_1 (StableHlo.after hostOps0 (W0 m ρ c))) (Proc.devRef .tc main_arg7) = _
  after_results_simp
theorem w3_arg8 (c : Dev nD) : W3 m ρ c (Proc.devRef .tc main_arg8) = m ((c.tc : Thread nD τ).loc main_arg8) := by
  show StableHlo.after hostOps0_2 (StableHlo.after hostOps0_1 (StableHlo.after hostOps0 (W0 m ρ c))) (Proc.devRef .tc main_arg8) = _
  after_results_simp

/-- The kernel's result buffer ends at `value` of the kernel's arguments. -/
theorem kernel_value (c : Dev nD) : W8 m ρ c (Proc.devRef .tc main_v64) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine ((W8_arr m ρ c 4).trans (Cert.KernelIdeal.HeadRegion.final (V7 m ρ) c)).trans ?_
  show head (W7 m ρ c (Proc.devRef .tc main_v61)) (W7 m ρ c (Proc.devRef .tc main_v62)) (W7 m ρ c (Proc.devRef .tc main_arg7)) (W7 m ρ c (Proc.devRef .tc main_v63)) = _
  rw [w7_v61, w7_v62, w7_arg7, w7_v63, w6_v49, w6_v32, w6_v5, w6_v6, w6_arg6, w6_arg7, w6_arg8,
    w5_v46, w5_v47, w5_v48, w5_v32, w5_v5, w5_v6, w5_arg6, w5_arg7, w5_arg8,
    w4_v33, w4_v32, w4_v5, w4_v6, w4_arg4, w4_arg5, w4_arg6, w4_arg7, w4_arg8,
    w3_v32, w2_v16, w2_v8, w2_v5, w2_v6, w1_v13, w1_v14, w1_v15, w1_v8, w1_v5, w1_v6, norm_eq, w3_v5, w3_v6, w3_arg0, w3_arg3, w3_arg4, w3_arg5, w3_arg6, w3_arg7, w3_arg8]
  rfl

end Cert.KernelIdeal.Fold

end
-- ==== Proof.lean ====
/-
  A two-layer graph convolution over 1 000 000 nodes and 16 000 000 weighted edges (plus one self loop per node):
  with D the weighted in-degree and norm(e) = D(src)^(-1/2) · w(e) · D(dst)^(-1/2),

      out = logistic( (A (max(A (x W1) + b1, 0) W2) + b2) Wl + bl ),      (A h)(n) = Σ over edges e into n of norm(e) · h(src e).

  The kernel program runs the three dense maps — x ↦ x W1, a ↦ max(a + b1, 0) W2 and a ↦ logistic((a + b2) Wl + bl) — as
  three pipelined regions over 125 blocks of 8000 rows, with the degree normalisation and the two aggregations A as host
  operations around them; the reference runs everything on the host, the dense maps as general contractions and the
  logistic function spelt 1 / (1 + exp(−v)).

  * The three run claims: each kernel program terminates without a fault and leaves its arguments as launched (the
    generated whole-program runs); the reference's is its generated run with the result dropped.
  * The idealized kernel is the kernel's own text read on the extended reals (no rewrite was applied), so there is nothing
    to preserve.
  * On the extended reals the two results are equal: the contraction over an axis of length one is the single product,
    the contraction over the four hidden features is the kernel's four-term row sum, the spelt-out logistic is the
    logistic function and the float word for 1.0 is the number one; the normalisation and the aggregations are the same
    host operations on both sides and are never opened. Nothing here needs the inputs to be finite, so the precondition
    is not used.
-/
import proofs.«176831_j60687887893291_2_alg».proof.Defs
import proofs.«176831_j60687887893291_2_alg».proof.Proof.Gen.Kernel
import proofs.«176831_j60687887893291_2_alg».proof.Proof.Gen.Kernel.Skeleton
import proofs.«176831_j60687887893291_2_alg».proof.Proof.Gen.Kernel.Launch
import proofs.«176831_j60687887893291_2_alg».proof.Proof.Gen.Kernel.Points
import proofs.«176831_j60687887893291_2_alg».proof.Proof.Gen.Kernel.Frame
import proofs.«176831_j60687887893291_2_alg».proof.Proof.Gen.KernelIdeal
import proofs.«176831_j60687887893291_2_alg».proof.Proof.Gen.KernelIdeal.Skeleton
import proofs.«176831_j60687887893291_2_alg».proof.Proof.Gen.KernelIdeal.Launch
import proofs.«176831_j60687887893291_2_alg».proof.Proof.Gen.KernelIdeal.Points
import proofs.«176831_j60687887893291_2_alg».proof.Proof.Gen.KernelIdeal.Frame
import proofs.«176831_j60687887893291_2_alg».proof.Proof.Gen.ReferenceIdeal
import proofs.«176831_j60687887893291_2_alg».proof.Proof.Gen.Pre_finite_inputs
import proofs.«176831_j60687887893291_2_alg».proof.Proof.Gen.ReferenceIdeal.Run
import proofs.«176831_j60687887893291_2_alg».proof.Proof.Gen.ReferenceIdeal.Read
import Idealize.ShloMosaic.Adequacy
import Idealize.ShloMosaic.Init
import proofs.«176831_j60687887893291_2_alg».proof.Proof.KernelRun
import proofs.«176831_j60687887893291_2_alg».proof.Proof.Bridge

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference runs and keeps its arguments: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- From memories that agree on the nine arguments both programs end with the same result array: each ends at the
    network's output as one function of its arguments, and the arguments agree. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  show Cert.ReferenceIdeal.Value.res_main_v76 m' c = Cert.KernelIdeal.Gen.W8 m ρ c (Proc.devRef .tc Cert.KernelIdeal.main_v64)
  rw [Cert.ReferenceIdeal.Read.val_main_v76_eq, Cert.Gcn.ref_value, Cert.KernelIdeal.Fold.kernel_value,
    e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
